-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8192x512 .f32) (main_arg1 : FVec F S1024x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S8192x512 : Shape := ⟨2, ![8192, 512]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x1 : Shape := ⟨2, ![1024, 1]⟩
abbrev S1x512 : Shape := ⟨2, ![1, 512]⟩
abbrev S512 : Shape := ⟨1, ![512]⟩
abbrev S1x8192 : Shape := ⟨2, ![1, 8192]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 66
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x512, .f32⟩
  | .hbm, ⟨21, _⟩ => ⟨S1024x512, .f32⟩
  | .hbm, ⟨22, _⟩ => ⟨S1x512, .f32⟩
  | .hbm, ⟨23, _⟩ => ⟨S512, .f32⟩
  | .hbm, ⟨24, _⟩ => ⟨S8192x512, .bf16⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S1x8192, .f32⟩
  | .hbm, ⟨45, _⟩ => ⟨S1x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  slices_S1024x512_S1x512_0_0 : S1024x512.Slices ![0, 0] S1x512
  shapeCasts_S1x512_S512 : S1x512.ShapeCasts S512
  bitsLt_bf16_f32 : FTy.bits .bf16 < FTy.bits .f32
  transposes_S8192x1_S1x8192_1_0 : S8192x1.Transposes [1, 0] S1x8192
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reducesTo_S8192x1_S_d0_1 : S8192x1.ReducesTo [0, 1] S_
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v18) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x1 : Shape := ⟨2, ![1024, 1]⟩
abbrev S1x512 : Shape := ⟨2, ![1, 512]⟩
abbrev S512 : Shape := ⟨1, ![512]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x512, .f32⟩
  | .hbm, ⟨21, _⟩ => ⟨S1024x512, .f32⟩
  | .hbm, ⟨22, _⟩ => ⟨S1x512, .f32⟩
  | .hbm, ⟨23, _⟩ => ⟨S512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S512x8192, .f32⟩
  | .hbm, ⟨30, _⟩ => ⟨S8192x8192, .f32⟩
  | .hbm, ⟨31, _⟩ => ⟨S8192x1, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S8192x1, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  slices_S1024x512_S1x512_0_0 : S1024x512.Slices ![0, 0] S1x512
  shapeCasts_S1x512_S512 : S1x512.ShapeCasts S512
  transposes_S8192x512_S512x8192_1_0 : S8192x512.Transposes [1, 0] S512x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KIRuns.lean ====
/-
  The kernel body, run on any whole staging buffers.
-/
import proofs.«180175_j71476845740753_2_alg».proof.Proof.Gen.KernelIdeal.Launch
import proofs.«180175_j71476845740753_2_alg».proof.Proof.Gen.KernelIdeal.Skeleton
import proofs.«180175_j71476845740753_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid

The grid is 8 row blocks by 4 column stretches, the column stretch the fast coordinate: point `t` is row block
`t / 4`, stretch `t % 4`. The accumulator is cleared at a row block's first stretch and copied out at its last. -/

/-- "This is the first column stretch of the row block." -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 4 = 0 :=
  (by decide +kernel : ∀ t : Fin grid0.N, first (grid0.coords t) ↔ t.val % 4 = 0)

/-- "This is the last column stretch of the row block." -/
abbrev last (i : grid0.Coords) : Prop := k0_cond2 i = 1#1
theorem last_iff : ∀ t : Fin cfg0.N, last (grid0.coords t) ↔ t.val % 4 = 3 :=
  (by decide +kernel : ∀ t : Fin grid0.N, last (grid0.coords t) ↔ t.val % 4 = 3)

/-- The five input windows are never idle; the output window is idle exactly off the last stretch, and written
    back exactly at it. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem idle5 : ∀ t : Fin cfg0.N, ¬last (grid0.coords t) → cfg0.idle 5 (grid0.coords t) = true := by decide +kernel
theorem noFlush5 : ∀ t : Fin cfg0.N, ¬last (grid0.coords t) → (cfg0.win 5).flush t = false := by decide +kernel
theorem live5 : ∀ t : Fin cfg0.N, last (grid0.coords t) → cfg0.idle 5 (grid0.coords t) = false := by decide +kernel

/-! ## The body on any whole staging memrefs, case by case

Each run hands back the five input buffers as found. What the accumulator (and, at a last stretch, the output buffer) end
with is a list of written pieces the run finds. -/

set_option maxHeartbeats 2000000 in
/-- A middle stretch: neither branch is taken; the accumulator, found at `xs`, is overwritten once. -/
noncomputable def runMid (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬first i) (hc2 : ¬last i)
    (x0 : Vec F S1024x512 .bf16) (x1 : Vec F S2048x512 .bf16) (x2 : Vec F S1024x1 .f32) (x3 : Vec F S1x2048 .f32) (x4 : Vec F S1024x1 .f32) (xs : Vec F S1024x1 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__pp_sum_kernel i arg2 harg2 arg3 harg3 arg4 harg4 arg5 harg5 arg6 harg6 arg7 harg7 arg8 harg8) K } := by
  refine ⟨?_, fun xo E K => ?run⟩
  case run =>
    simp only [cc0__pp_sum_kernel_eq_skeleton]; unfold cc0__pp_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 2000000 in
/-- A first stretch: the accumulator, found at anything, is cleared and then overwritten. -/
noncomputable def runFirst (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : first i) (hc2 : ¬last i)
    (x0 : Vec F S1024x512 .bf16) (x1 : Vec F S2048x512 .bf16) (x2 : Vec F S1024x1 .f32) (x3 : Vec F S1x2048 .f32) (x4 : Vec F S1024x1 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__pp_sum_kernel i arg2 harg2 arg3 harg3 arg4 harg4 arg5 harg5 arg6 harg6 arg7 harg7 arg8 harg8) K } := by
  refine ⟨?_, fun xo E K => ?run⟩
  case run =>
    simp only [cc0__pp_sum_kernel_eq_skeleton]; unfold cc0__pp_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 2000000 in
/-- A last stretch: the accumulator, found at `xs`, is overwritten, and what it then holds is stored over the whole
    output buffer, found at anything. -/
noncomputable def runLast (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬first i) (hc2 : last i)
    (x0 : Vec F S1024x512 .bf16) (x1 : Vec F S2048x512 .bf16) (x2 : Vec F S1024x1 .f32) (x3 : Vec F S1x2048 .f32) (x4 : Vec F S1024x1 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__pp_sum_kernel i arg2 harg2 arg3 harg3 arg4 harg4 arg5 harg5 arg6 harg6 arg7 harg7 arg8 harg8) K } := by
  refine ⟨?_, ?_, fun E K => ?run⟩
  case run =>
    simp only [cc0__pp_sum_kernel_eq_skeleton]; unfold cc0__pp_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.KernelIdeal.Hand

end
-- ==== Proof.KIData.lean ====
/-
  The pipeline's proof data: the blocks the body finds, what the accumulator holds after each grid point and what the
  output buffer holds after each last stretch, the invariant between points, and the body obligation.
-/
import proofs.«180175_j71476845740753_2_alg».proof.Proof.Gen.KernelIdeal.Launch
import proofs.«180175_j71476845740753_2_alg».proof.Proof.Gen.KernelIdeal.Skeleton
import proofs.«180175_j71476845740753_2_alg».proof.Proof.Gen.KernelIdeal.Points
import proofs.«180175_j71476845740753_2_alg».proof.Proof.KIRuns
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, and the accumulator. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev scM : Memref sig .tc .vmem S1024x1 .f32 := Memref.whole cc0_scratch0
/-- The views through which the accumulator's and the output buffer's contents are stated. -/
abbrev VS : View sig .tc .vmem S1024x1 .f32 := scM.view
abbrev VO : View sig .tc .vmem S1024x1 .f32 := (Memref.whole cc0_stg5_0 : Memref sig .tc .vmem S1024x1 .f32).view

/-- The region's invariant with the accumulator as a buffer owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What each case leaves -/

theorem coverFirst (c : Dev nD) (t : Fin cfg0.N) (hc1 : first (grid0.coords t)) (hc2 : ¬last (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t)).1, y ∈ pc.1.set :=
  View.cover_of_tiledL _ S1024x1.size (by sl_kernel_rfl) y
/-- The accumulator after a first stretch. -/
def accFirst (c : Dev nD) (t : Fin cfg0.N) (hc1 : first (grid0.coords t)) (hc2 : ¬last (grid0.coords t)) : Vec F S1024x1 .f32 :=
  VS.read (Elt F) (VS.writes (Elt F) VS.junk (runFirst c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t)).1)

theorem coverMid (c : Dev nD) (t : Fin cfg0.N) (hc1 : ¬first (grid0.coords t)) (hc2 : ¬last (grid0.coords t)) (xs : Vec F S1024x1 .f32) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1, y ∈ pc.1.set :=
  View.cover_of_tiledL _ S1024x1.size (by sl_kernel_rfl) y
/-- The accumulator after a middle stretch that found it at `xs`. -/
def accMid (c : Dev nD) (t : Fin cfg0.N) (hc1 : ¬first (grid0.coords t)) (hc2 : ¬last (grid0.coords t)) (xs : Vec F S1024x1 .f32) : Vec F S1024x1 .f32 :=
  VS.read (Elt F) (VS.writes (Elt F) VS.junk (runMid c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1)

theorem coverLastS (c : Dev nD) (t : Fin cfg0.N) (hc1 : ¬first (grid0.coords t)) (hc2 : last (grid0.coords t)) (xs : Vec F S1024x1 .f32) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).2.1, y ∈ pc.1.set :=
  View.cover_of_tiledL _ S1024x1.size (by sl_kernel_rfl) y
theorem coverLastO (c : Dev nD) (t : Fin cfg0.N) (hc1 : ¬first (grid0.coords t)) (hc2 : last (grid0.coords t)) (xs : Vec F S1024x1 .f32) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1, y ∈ pc.1.set :=
  View.cover_of_tiledL _ S1024x1.size (by sl_kernel_rfl) y
/-- The accumulator after a last stretch that found it at `xs`, -/
def accLast (c : Dev nD) (t : Fin cfg0.N) (hc1 : ¬first (grid0.coords t)) (hc2 : last (grid0.coords t)) (xs : Vec F S1024x1 .f32) : Vec F S1024x1 .f32 :=
  VS.read (Elt F) (VS.writes (Elt F) VS.junk (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).2.1)
/-- and the output buffer after it. -/
def outLast (c : Dev nD) (t : Fin cfg0.N) (hc1 : ¬first (grid0.coords t)) (hc2 : last (grid0.coords t)) (xs : Vec F S1024x1 .f32) : Vec F S1024x1 .f32 :=
  VO.read (Elt F) (VO.writes (Elt F) VO.junk (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1)

/-! ## The accumulator and the output buffer, point by point -/

/-- What the accumulator holds after the body at position `n`: a first stretch starts afresh, a later stretch builds
    on what the stretch before left. -/
def accAt (c : Dev nD) : (n : ℕ) → n < cfg0.N → Vec F S1024x1 .f32
  | 0, hn => accFirst m c ⟨0, hn⟩ ((first_iff ⟨0, hn⟩).mpr (Nat.zero_mod _)) (fun h => (fun h => by (try dsimp only at h); omega) ((last_iff ⟨0, hn⟩).mp h))
  | n + 1, hn =>
    if h0 : (n + 1) % 4 = 0 then
      accFirst m c ⟨n + 1, hn⟩ ((first_iff ⟨n + 1, hn⟩).mpr h0) (fun h => (fun h => by (try dsimp only at h); omega) ((last_iff ⟨n + 1, hn⟩).mp h))
    else if h3 : (n + 1) % 4 = 3 then
      accLast m c ⟨n + 1, hn⟩ (fun h => h0 ((first_iff ⟨n + 1, hn⟩).mp h)) ((last_iff ⟨n + 1, hn⟩).mpr h3) (accAt c n (Nat.lt_of_succ_lt hn))
    else
      accMid m c ⟨n + 1, hn⟩ (fun h => h0 ((first_iff ⟨n + 1, hn⟩).mp h)) (fun h => h3 ((last_iff ⟨n + 1, hn⟩).mp h)) (accAt c n (Nat.lt_of_succ_lt hn))

theorem accAt_first (c : Dev nD) (t : Fin cfg0.N) (h0 : t.val % 4 = 0) :
    accAt m c t.val t.isLt = accFirst m c t ((first_iff t).mpr h0) (fun h => (fun h => by omega) ((last_iff t).mp h)) := by
  obtain ⟨n, hn⟩ := t
  cases n with
  | zero => rfl
  | succ n => exact dif_pos h0

theorem accAt_mid (c : Dev nD) (t : Fin cfg0.N) (h0 : ¬t.val % 4 = 0) (h3 : ¬t.val % 4 = 3) :
    accAt m c t.val t.isLt = accMid m c t (fun h => h0 ((first_iff t).mp h)) (fun h => h3 ((last_iff t).mp h))
      (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h3)

theorem accAt_last (c : Dev nD) (t : Fin cfg0.N) (h0 : ¬t.val % 4 = 0) (h3 : t.val % 4 = 3) :
    accAt m c t.val t.isLt = accLast m c t (fun h => h0 ((first_iff t).mp h)) ((last_iff t).mpr h3)
      (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h3)

/-- What the output buffer holds after the body at point `t`: at a last stretch what that case stored; elsewhere the
    buffer is not stored into, and this value is not consulted. -/
def outAt (c : Dev nD) (t : Fin cfg0.N) : Vec F S1024x1 .f32 :=
  if h3 : t.val % 4 = 3 then
    outLast m c t (fun h => (fun h => by omega) ((first_iff t).mp h)) ((last_iff t).mpr h3)
      (accAt m c (t.val - 1) (Nat.lt_of_le_of_lt (Nat.sub_le _ _) t.isLt))
  else VO.read (Elt F) VO.junk

/-- The invariant before position `n`: before the first point the accumulator at anything; afterwards at what the point
    before left. The generator register rides along at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input buffer at its block, the output buffer at `outAt`; the
    invariant `PhiS`; nothing owed. The two windows on the array of unit rows hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- An input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.Hand

end
-- ==== Proof.KIBody.lean ====
/-
  The body obligation: at every grid point the body, called on the windows' current staging buffers holding their blocks
  and on the accumulator as the point before left it, runs to the next point's invariant.
-/
import proofs.«180175_j71476845740753_2_alg».proof.Proof.Gen.KernelIdeal.Launch
import proofs.«180175_j71476845740753_2_alg».proof.Proof.Gen.KernelIdeal.Skeleton
import proofs.«180175_j71476845740753_2_alg».proof.Proof.Gen.KernelIdeal.Points
import proofs.«180175_j71476845740753_2_alg».proof.Proof.KIData
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's position in its row block says which case
    runs; the accumulator is handed over at what the point before left (at anything before the first point) and taken back
    at this point's contents; the output buffer is handed back untouched off a last stretch and fully stored at one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 32 := lt_of_lt_of_eq t.isLt (show cfg0.N = 32 from N_0)
  by_cases h0 : t.val % 4 = 0
  · have h3 : ¬t.val % 4 = 3 := by omega
    rw [Dat.leavesExact_idle (dats m 0 c) 5 t (idle5 t (fun h => h3 ((last_iff t).mp h))) (noFlush5 t (fun h => h3 ((last_iff t).mp h)))]
    rw [accAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h0) (fun h => h3 ((last_iff t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h0) (fun h => h3 ((last_iff t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h3 : t.val % 4 = 3
    · rw [show (dats m 0 c).leavesExact 5 t = owns (c : Thread nD τ) (ms5 t) fullShare ((dats m 0 c).after 5 t) from by
        unfold Dat.leavesExact; rw [live5 t ((last_iff t).mpr h3)], after5]
      rw [accAt_last m c t h0 h3]
      unfold outAt; rw [dif_pos h3]
      unfold accLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) scM (Memref.isWhole_whole _) (fun h => h0 ((first_iff t).mp h)) ((last_iff t).mpr h3) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverLastS m c t _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastO m c t _ _ _)
    · rw [Dat.leavesExact_idle (dats m 0 c) 5 t (idle5 t (fun h => h3 ((last_iff t).mp h))) (noFlush5 t (fun h => h3 ((last_iff t).mp h)))]
      rw [accAt_mid m c t h0 h3]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) scM (Memref.isWhole_whole _) (fun h => h0 ((first_iff t).mp h)) (fun h => h3 ((last_iff t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverMid m c t _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulator holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

end Cert.KernelIdeal.Hand

end
-- ==== Proof.KIArgs.lean ====
/-
  The buffers that bypass the region, and what the two host stretches write.

  The run's final contents are the opening host stretch's, then the region's output array set to what the region
  leaves, then the closing stretch's.  Each host operation writes its own result buffer and nothing else, so a buffer
  that is no operation's result — an argument of the program — holds at the end what it held at the start; setting one
  buffer changes that buffer and no other; and the closing stretch writes none of the six windows' arrays.  The arguments
  and the program's result are unscoped buffers that are no window's array.
-/
import proofs.«180175_j71476845740753_2_alg».proof.Proof.KIData
import Idealize.ShloMosaic.Lib.StableHlo.Run
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

/-- The result buffers of the opening stretch's 57 operations, in order. -/
abbrev written0 : List (Ref sig .tc) :=
  [
    main_v0, main_cst, main_v1, main_v2, main_v3, main_cst_0, main_v4, main_v5, main_v6, main_v7,
    main_v8, main_cst_1, main_v9, main_v10, main_v11, main_cst_2, main_v12, main_v13, main_v14, main_v15,
    main_v16, main_v17, main_v18, main_v19, main_v20, main_cst_3, main_v21, main_v22, main_cst_4, main_v23,
    main_v24, main_cst_5, main_v25, main_v26, main_v27, main_cst_6, main_v28, main_v29, main_cst_7, main_v30,
    main_v31, main_v32, main_v33, main_v34, main_v35, main_v36, main_cst_8, main_v37, main_v38, main_v39,
    main_cst_9, main_v40, main_v41, main_v42, main_cst_10, main_v43, main_v44 ]
/-- The result buffers of the closing stretch's 6 operations, in order. -/
abbrev written1 : List (Ref sig .tc) :=
  [ main_cst_11, main_v46, main_cst_12, main_v47, main_cst_13, main_v48 ]

/-- Every operation of the opening stretch writes one of those buffers only. -/
theorem writes0 : (hostOps0 : List (HloOp τ sig (Elt F))).Forall
    fun op => op.writes ⊆ (written0.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-- Every operation of the closing stretch writes one of those buffers only. -/
theorem writes1 : (hostOps1 : List (HloOp τ sig (Elt F))).Forall
    fun op => op.writes ⊆ (written1.map (Proc.devRef (τ := τ) .tc)).toFinset := by
  simp only [List.Forall, StableHlo.nullary_writes, StableHlo.binary_writes, Finset.singleton_subset_iff,
    List.mem_toFinset]
  repeat' apply And.intro
  all_goals exact List.mem_map_of_mem (by decide)

/-- No host operation writes a buffer afresh. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- No window's array is a result buffer of the closing stretch. -/
theorem arr_not_written1 : ∀ w : Fin 6, Pipeline.arrRef spec0 w ∉ written1 := by decide

/-- The closing stretch writes none of the six windows' arrays. -/
theorem tail_keeps (w : Fin 6) :
    ∀ op ∈ (hostOps1 : List (HloOp τ sig (Elt F))), Proc.devRef .tc (Pipeline.arrRef spec0 w) ∉ op.writes := by
  intro op hop hb
  obtain ⟨y, hy, he⟩ :=
    List.mem_map.mp (List.mem_toFinset.mp ((List.forall_iff_forall_mem.mp (writes1 (F := F))) op hop hb))
  exact arr_not_written1 w (Proc.devRef_injective _ he ▸ hy)

/-! ## Setting the region's output array -/

variable (W : Valuation τ sig (Elt F)) (X : main_v45.ty.Contents (Elt F))

/-- The valuation set at the output array holds the new contents there, -/
theorem upd_v45 :
    (StableHlo.nullary main_v45 X : HloOp τ sig (Elt F)).result W (Proc.devRef .tc main_v45) = X :=
  StableHlo.nullary_result main_v45 X _ W

/-- and the old contents at every other buffer. -/
theorem upd_ne (r : Ref sig .tc) (h : r ≠ main_v45) :
    (StableHlo.nullary main_v45 X : HloOp τ sig (Elt F)).result W (Proc.devRef .tc r) = W (Proc.devRef .tc r) :=
  StableHlo.nullary_result_ne main_v45 X _ W h

/-! ## The arguments come through unchanged -/

/-- The one-stretch list of lists flattens to the stretch. -/
theorem flatten0 : List.flatten [(hostOps0 : List (HloOp τ sig (Elt F)))] = hostOps0 := by
  simp only [List.flatten_cons, List.flatten_nil, List.append_nil]

/-- A buffer that neither stretch writes and that is not the output array holds at the end what it held at the start. -/
theorem keep_of (r : Ref sig .tc) (h0 : r ∉ written0) (h1 : r ∉ written1) (h : r ≠ main_v45) :
    StableHlo.after hostOps1 ((StableHlo.nullary main_v45 X : HloOp τ sig (Elt F)).result
      (StableHlo.after (List.flatten [hostOps0]) W)) (Proc.devRef .tc r) = W (Proc.devRef .tc r) := by
  rw [StableHlo.after_of_writes_sub hostOps1 _ writes1 h1, upd_ne _ X r h, flatten0,
    StableHlo.after_of_writes_sub hostOps0 _ writes0 h0]

theorem keep_arg0 :
    StableHlo.after hostOps1 ((StableHlo.nullary main_v45 X : HloOp τ sig (Elt F)).result
      (StableHlo.after (List.flatten [hostOps0]) W)) (Proc.devRef .tc main_arg0) = W (Proc.devRef .tc main_arg0) :=
  keep_of W X main_arg0 (by decide) (by decide) (by decide)

theorem keep_arg1 :
    StableHlo.after hostOps1 ((StableHlo.nullary main_v45 X : HloOp τ sig (Elt F)).result
      (StableHlo.after (List.flatten [hostOps0]) W)) (Proc.devRef .tc main_arg1) = W (Proc.devRef .tc main_arg1) :=
  keep_of W X main_arg1 (by decide) (by decide) (by decide)

/-! ## Buffers that bypass the region -/

theorem rest_arg0 : main_arg0 ∈ Pipeline.restRefs sig spec0 := Pipeline.mem_restRefs_of _ (by decide) (by decide)
theorem rest_arg1 : main_arg1 ∈ Pipeline.restRefs sig spec0 := Pipeline.mem_restRefs_of _ (by decide) (by decide)
theorem rest_v48 : main_v48 ∈ Pipeline.restRefs sig spec0 := Pipeline.mem_restRefs_of _ (by decide) (by decide)

end Cert.KernelIdeal.Hand

end
-- ==== Proof.KITail.lean ====
/-
  Around the kernel region: the arrays as a chain of holdings (the array two windows share held in halves), the dealing
  and joining of that array's share, and the closing stretch of host operations run from the region's exit.
-/
import proofs.«180175_j71476845740753_2_alg».proof.Proof.Gen.KernelIdeal.Launch
import proofs.«180175_j71476845740753_2_alg».proof.Proof.Gen.KernelIdeal.Skeleton
import proofs.«180175_j71476845740753_2_alg».proof.Proof.Gen.KernelIdeal.Points
import proofs.«180175_j71476845740753_2_alg».proof.Proof.KIBody
import proofs.«180175_j71476845740753_2_alg».proof.Proof.KIArgs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the closing stretch, at the contents after the first stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by exact hostOps0_sub) (by exact hostOps0_fresh) main_chain

/-! ## The contents after the region and after the closing stretch -/

/-- The region-entry contents with the output array at what the region leaves in it. -/
abbrev Wx (c : Dev nD) : Valuation τ sig (Elt F) := (StableHlo.nullary main_v45 ((dats m 0 c).arrAt 5 cfg0.N)).result (V0 m c)
/-- The contents when @main returns. -/
abbrev Wend (c : Dev nD) : Valuation τ sig (Elt F) := StableHlo.after (List.flatten [hostOps1]) (Wx m c)

/-! ## The arrays, window by window -/

/-- The pipeline's arrays at contents `A`: the array of unit rows twice, at the two halves of the full share, and the
    other four whole. -/
theorem arrays_eq6 (c : Dev nD) (A : (w : Fin cfg0.W) → Buf (Elt F) ((cfg0.win w).arr.view.loc (c.tc : Thread nD τ))) :
    ((dats m 0 c).arrays A : sProp 𝕄) = iprop(((((c.tc : Thread nD τ).loc main_v18)) ↦{fullShare.left} A 0) ∗ ((((c.tc : Thread nD τ).loc main_v18)) ↦{fullShare.right} A 1)
      ∗ ((((c.tc : Thread nD τ).loc main_v29)) ↦{fullShare} A 2) ∗ ((((c.tc : Thread nD τ).loc main_v33)) ↦{fullShare} A 3) ∗ ((((c.tc : Thread nD τ).loc main_v44)) ↦{fullShare} A 4) ∗ ((((c.tc : Thread nD τ).loc main_v45)) ↦{fullShare} A 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

/-- The distinct buffers behind them, each whole. -/
theorem arrBufs_eq5 (c : Dev nD) (Vv : (b : Ref sig .tc) → Buf (Elt F) ((c.tc : Thread nD τ).loc b)) :
    (Pipeline.arrBufs spec0 c Vv : sProp 𝕄) = iprop(((((c.tc : Thread nD τ).loc main_v18)) ↦{fullShare} Vv main_v18) ∗ ((((c.tc : Thread nD τ).loc main_v29)) ↦{fullShare} Vv main_v29)
      ∗ ((((c.tc : Thread nD τ).loc main_v33)) ↦{fullShare} Vv main_v33) ∗ ((((c.tc : Thread nD τ).loc main_v44)) ↦{fullShare} Vv main_v44) ∗ ((((c.tc : Thread nD τ).loc main_v45)) ↦{fullShare} Vv main_v45)) := by
  unfold Pipeline.arrBufs
  exact bigSep_eq_bigSepL_of_eq [main_v18, main_v29, main_v33, main_v44, main_v45] (by decide) (by decide) _

/-- Dealing: the buffers behind the arrays, whole, are the pipeline's arrays — the shared one split in halves. -/
theorem parts_of_bufs (c : Dev nD) (Wv : Valuation τ sig (Elt F)) (A : (w : Fin cfg0.W) → Buf (Elt F) ((cfg0.win w).arr.view.loc (c.tc : Thread nD τ)))
    (h0 : A 0 = Wv (Proc.devRef .tc main_v18)) (h1 : A 1 = Wv (Proc.devRef .tc main_v18)) (h2 : A 2 = Wv (Proc.devRef .tc main_v29))
    (h3 : A 3 = Wv (Proc.devRef .tc main_v33)) (h4 : A 4 = Wv (Proc.devRef .tc main_v44)) (h5 : A 5 = Wv (Proc.devRef .tc main_v45)) :
    (Pipeline.arrBufs spec0 c (fun b => Wv (Proc.devRef .tc b)) : sProp 𝕄) ⊢ (dats m 0 c).arrays A := by
  rw [arrays_eq6, arrBufs_eq5, h0, h1, h2, h3, h4, h5]
  iintro ⟨H18, H29, H33, H44, H45⟩
  ihave H18 := (pointsTo_share (PosShare.mem_left_op_right fullShare)).1 $$ H18
  icases H18 with ⟨Ha, Hb⟩
  isplitl [Ha]; · iexact Ha
  isplitl [Hb]; · iexact Hb
  isplitl [H29]; · iexact H29
  isplitl [H33]; · iexact H33
  isplitl [H44]; · iexact H44
  iexact H45

/-- Joining: the converse, the two halves of the shared array holding the same contents. -/
theorem bufs_of_parts (c : Dev nD) (Wv : Valuation τ sig (Elt F)) (A : (w : Fin cfg0.W) → Buf (Elt F) ((cfg0.win w).arr.view.loc (c.tc : Thread nD τ)))
    (h0 : A 0 = Wv (Proc.devRef .tc main_v18)) (h1 : A 1 = Wv (Proc.devRef .tc main_v18)) (h2 : A 2 = Wv (Proc.devRef .tc main_v29))
    (h3 : A 3 = Wv (Proc.devRef .tc main_v33)) (h4 : A 4 = Wv (Proc.devRef .tc main_v44)) (h5 : A 5 = Wv (Proc.devRef .tc main_v45)) :
    ((dats m 0 c).arrays A : sProp 𝕄) ⊢ Pipeline.arrBufs spec0 c (fun b => Wv (Proc.devRef .tc b)) := by
  rw [arrays_eq6, arrBufs_eq5, h0, h1, h2, h3, h4, h5]
  iintro ⟨Ha, Hb, H29, H33, H44, H45⟩
  isplitl [Ha Hb]
  · iapply (pointsTo_share (PosShare.mem_left_op_right fullShare)).2
    isplitl [Ha] <;> iassumption
  isplitl [H29]; · iexact H29
  isplitl [H33]; · iexact H33
  isplitl [H44]; · iexact H44
  iexact H45

/-- At the region's entry. -/
theorem hsplit (c : Dev nD) : (Pipeline.arrBufs spec0 c (V m c) : sProp 𝕄) ⊢ (dats m 0 c).arrays ((dats m 0 c).arrAt · 0) :=
  parts_of_bufs m c (V0 m c) _ (A_eq m c 0) (A_eq m c 1) (A_eq m c 2) (A_eq m c 3) (A_eq m c 4) (A_eq m c 5)

/-! ## The closing stretch -/

/-- An input window's array ends as the region found it. -/
theorem arrAt_input (c : Dev nD) (w : Fin cfg0.W) (hw : (cfg0.win w).isOut = false) :
    (dats m 0 c).arrAt w cfg0.N = V m c (Pipeline.arrRef spec0 w) :=
  ((dats m 0 c).arrAt_in w hw _).trans (A_eq m c w)

theorem Wx_ne (c : Dev nD) (r : Ref sig .tc) (h : r ≠ main_v45) : Wx m c (Proc.devRef .tc r) = V0 m c (Proc.devRef .tc r) :=
  upd_ne (V0 m c) ((dats m 0 c).arrAt 5 cfg0.N) r h
theorem Wx_out (c : Dev nD) : Wx m c (Proc.devRef .tc main_v45) = (dats m 0 c).arrAt 5 cfg0.N :=
  upd_v45 (V0 m c) ((dats m 0 c).arrAt 5 cfg0.N)

/-- The closing stretch writes none of the windows' arrays. -/
theorem closing_keeps (w : Fin cfg0.W) : ∀ op ∈ (List.flatten [hostOps1] : List (HloOp τ sig (Elt F))), Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl
  all_goals fin_cases w <;> simp only [StableHlo.nullary_writes, StableHlo.unary_writes, StableHlo.binary_writes, Finset.mem_singleton] <;> exact StableHlo.devRef_ne_of_ne (by decide)

theorem Wend_arr (c : Dev nD) (w : Fin cfg0.W) : Wend m c (Proc.devRef .tc (Pipeline.arrRef spec0 w)) = Wx m c (Proc.devRef .tc (Pipeline.arrRef spec0 w)) :=
  StableHlo.after_of_forall_not_mem _ _ (closing_keeps w)

/-- The bypassing buffers are the same at the region-entry contents and with the output array updated. -/
theorem rest_Wx (c : Dev nD) : (Pipeline.unscopedRest spec0 c (V m c) : sProp 𝕄) = Pipeline.unscopedRest spec0 c (fun b => Wx m c (Proc.devRef .tc b)) := by
  unfold Pipeline.unscopedRest
  exact bigSep_congr fun b hb => by
    beta_reduce
    rw [Wx_ne m c b fun e => (Finset.mem_sdiff.mp hb).2 (Finset.mem_image.mpr ⟨5, Finset.mem_univ _, e.symm⟩)]

set_option maxHeartbeats 4000000 in
set_option backward.isDefEq.respectTransparency.types false in
/-- From the region's exit the closing stretch runs within the core's unscoped buffers — the shared array joined again —
    and hands back the arrays as the region left them and the bypassing buffers at the final contents. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (fun b => Wend m c (Proc.devRef .tc b))) -∗ Q' ⟨⟩)
        ∗ boundary (c.tc : Thread nD τ) ∗ (dats m 0 c).arrays ((dats m 0 c).arrAt · cfg0.N) ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  rw [Pipeline.unscopedRestP_none, Pipeline.unscopedRestP_none, rest_Wx]
  have hU : ∀ Wv : Valuation τ sig (Elt F), (unscopedBufs c (fun b => Wv (Proc.devRef .tc b)) : sProp 𝕄)
      = iprop(Pipeline.arrBufs spec0 c (fun b => Wv (Proc.devRef .tc b)) ∗ Pipeline.unscopedRest spec0 c (fun b => Wv (Proc.devRef .tc b))) :=
    fun Wv => Pipeline.unscopedBufs_split₀ cfgs (0 : Fin 1) winFacts₀0.arr_unscoped c _
  have hin5 : ∀ w : Fin cfg0.W, (cfg0.win w).isOut = false → w ≠ 5 → (dats m 0 c).arrAt w cfg0.N = Wx m c (Proc.devRef .tc (Pipeline.arrRef spec0 w)) := fun w hw hne => by
    rw [arrAt_input m c w hw]
    exact (Wx_ne m c _ (by revert hne; fin_cases w <;> decide)).symm
  rw [← List.append_nil ([hostOps1].map StableHlo.seq)]
  iintro ⟨Hk, Hb, Ha, Hr⟩
  ihave Ha := (bufs_of_parts m c (Wx m c) _ (hin5 0 rfl (by decide)) (hin5 1 rfl (by decide)) (hin5 2 rfl (by decide)) (hin5 3 rfl (by decide)) (hin5 4 rfl (by decide)) (Wx_out m c).symm) $$ Ha
  iapply (Pipeline.wp_seqs_then (fun q => (cfgs q).toPCfg (Val := Elt F)) defs₀ Variants.none c (Pipeline.ucRefs τ sig) [] [hostOps1]
    (fun ops ho op h => by rcases List.mem_singleton.mp ho with rfl; exact Pipeline.sub_ucRefs op ((List.forall_iff_forall_mem.mp hostOps1_sub) op h))
    (fun ops ho op h => by rcases List.mem_singleton.mp ho with rfl; exact (List.forall_iff_forall_mem.mp hostOps1_fresh) op h)
    (Wx m c)) $$ [Hb Ha Hr]
  · isplitl [Hb]; · iexact Hb
    rw [← Pipeline.unscopedBufs_held, hU]
    isplitl [Ha] <;> iassumption
  iintro Hb
  rw [Pipeline.chain_nil, wp_pure]
  imodintro
  iapply Hk
  icases Hb with ⟨-, H⟩
  ihave H := (Entails.of_eq ((Pipeline.unscopedBufs_held (Ix := Unit) (Name := ℕ) (U := UR sig nD τ) (Lvl := ℕ) c
    (StableHlo.after (List.flatten [hostOps1]) (Wx m c))).symm.trans (hU _))) $$ H
  icases H with ⟨Ha, Hr⟩
  isplitl [Ha]
  · iapply (parts_of_bufs m c (Wend m c) _ ((hin5 0 rfl (by decide)).trans (Wend_arr m c 0).symm) ((hin5 1 rfl (by decide)).trans (Wend_arr m c 1).symm)
      ((hin5 2 rfl (by decide)).trans (Wend_arr m c 2).symm) ((hin5 3 rfl (by decide)).trans (Wend_arr m c 3).symm)
      ((hin5 4 rfl (by decide)).trans (Wend_arr m c 4).symm) ((Wx_out m c).symm.trans (Wend_arr m c 5).symm))
    iexact Ha
  iexact Hr

end Cert.KernelIdeal.Hand

end
-- ==== Proof.KILaunch.lean ====
/-
  The launch: @main is a stretch of host operations, the kernel region, and a closing stretch of host operations; the
  region is launched with the body obligation, the dealing of the shared array at entry and the closing stretch at exit.
-/
import proofs.«180175_j71476845740753_2_alg».proof.Proof.Gen.KernelIdeal.Launch
import proofs.«180175_j71476845740753_2_alg».proof.Proof.Gen.KernelIdeal.Skeleton
import proofs.«180175_j71476845740753_2_alg».proof.Proof.Gen.KernelIdeal.Points
import proofs.«180175_j71476845740753_2_alg».proof.Proof.KITail
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the run establishes: every buffer that bypasses the region ends at the final contents. -/
def Post : PUnit × MemSt nD τ sig (Elt F) → Prop := fun r =>
  ∀ c : Dev nD, ∀ b ∈ Pipeline.restRefsP sig Pipeline.Prefetch.none spec0, r.2.mem ((c.tc : Thread nD τ).loc b) = Wend m c (Proc.devRef .tc b)

set_option maxHeartbeats 4000000 in
set_option backward.isDefEq.respectTransparency.types false in
/-- At the compiled mesh, from any memory with zero counters: every weakly fair execution of @main on the TensorCores
    terminates, nothing faulting, and every buffer no window stages ends at the contents the two host stretches and the
    region's output give it. -/
theorem run_main : θ_run defs (onTc (τ := τ) (main (F := F))) (s₀ m ρ) (Post m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => (h c).2.2)

/-! ## What the run says of the arguments and of the result -/

theorem mem_restP {b : Ref sig .tc} (h : b ∈ Pipeline.restRefs sig spec0) : b ∈ Pipeline.restRefsP sig Pipeline.Prefetch.none spec0 :=
  Finset.mem_sdiff.mpr ⟨h, fun h' => by obtain ⟨k, -, -⟩ := Finset.mem_image.mp h'; exact k.elim0⟩

theorem flatten1 : (List.flatten [hostOps1] : List (HloOp τ sig (Elt F))) = hostOps1 := by
  simp only [List.flatten_cons, List.flatten_nil, List.append_nil]

/-- No operation of either stretch writes an argument, and the region's output is another array. -/
theorem final_arg0 (c : Dev nD) : Wend m c (Proc.devRef .tc main_arg0) = m ((c.tc : Thread nD τ).loc main_arg0) := by
  show StableHlo.after (List.flatten [hostOps1]) _ _ = _
  rw [flatten1]
  exact keep_arg0 (fun b => m (c, b)) _
theorem final_arg1 (c : Dev nD) : Wend m c (Proc.devRef .tc main_arg1) = m ((c.tc : Thread nD τ).loc main_arg1) := by
  show StableHlo.after (List.flatten [hostOps1]) _ _ = _
  rw [flatten1]
  exact keep_arg1 (fun b => m (c, b)) _

/-- The run with its post read at the result and at the two arguments. -/
theorem run_result : θ_run defs (onTc (τ := τ) (main (F := F))) ⟨m, fun _ => 0, ρ⟩ (fun r => ∀ c : Dev nD,
      r.2.mem ((c.tc : Thread nD τ).loc main_v48) = Wend m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v48 (mem_restP rest_v48), (h c main_arg0 (mem_restP rest_arg0)).trans (final_arg0 m c),
    (h c main_arg1 (mem_restP rest_arg1)).trans (final_arg1 m c)⟩) (run_main m ρ)

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.Hand

end
-- ==== Proof.KBRuns.lean ====
/-
  The kernel body, run on any whole staging buffers.
-/
import proofs.«180175_j71476845740753_2_alg».proof.Proof.Gen.Kernel.Launch
import proofs.«180175_j71476845740753_2_alg».proof.Proof.Gen.Kernel.Skeleton
import proofs.«180175_j71476845740753_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid

The grid is 8 row blocks by 4 column stretches, the column stretch the fast coordinate: point `t` is row block
`t / 4`, stretch `t % 4`. The accumulator is cleared at a row block's first stretch and copied out at its last. -/

/-- "This is the first column stretch of the row block." -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 4 = 0 :=
  (by decide +kernel : ∀ t : Fin grid0.N, first (grid0.coords t) ↔ t.val % 4 = 0)

/-- "This is the last column stretch of the row block." -/
abbrev last (i : grid0.Coords) : Prop := k0_cond2 i = 1#1
theorem last_iff : ∀ t : Fin cfg0.N, last (grid0.coords t) ↔ t.val % 4 = 3 :=
  (by decide +kernel : ∀ t : Fin grid0.N, last (grid0.coords t) ↔ t.val % 4 = 3)

/-- The five input windows are never idle; the output window is idle exactly off the last stretch, and written
    back exactly at it. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem idle5 : ∀ t : Fin cfg0.N, ¬last (grid0.coords t) → cfg0.idle 5 (grid0.coords t) = true := by decide +kernel
theorem noFlush5 : ∀ t : Fin cfg0.N, ¬last (grid0.coords t) → (cfg0.win 5).flush t = false := by decide +kernel
theorem live5 : ∀ t : Fin cfg0.N, last (grid0.coords t) → cfg0.idle 5 (grid0.coords t) = false := by decide +kernel

/-! ## The body on any whole staging memrefs, case by case

Each run hands back the five input buffers as found. What the accumulator (and, at a last stretch, the output buffer) end
with is a list of written pieces the run finds. -/

set_option maxHeartbeats 2000000 in
/-- A middle stretch: neither branch is taken; the accumulator, found at `xs`, is overwritten once. -/
noncomputable def runMid (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬first i) (hc2 : ¬last i)
    (x0 : Vec F S1024x512 .bf16) (x1 : Vec F S2048x512 .bf16) (x2 : Vec F S1024x1 .f32) (x3 : Vec F S1x2048 .f32) (x4 : Vec F S1024x1 .f32) (xs : Vec F S1024x1 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__pp_sum_kernel i arg2 harg2 arg3 harg3 arg4 harg4 arg5 harg5 arg6 harg6 arg7 harg7 arg8 harg8) K } := by
  refine ⟨?_, fun xo E K => ?run⟩
  case run =>
    simp only [cc0__pp_sum_kernel_eq_skeleton]; unfold cc0__pp_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 2000000 in
/-- A first stretch: the accumulator, found at anything, is cleared and then overwritten. -/
noncomputable def runFirst (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : first i) (hc2 : ¬last i)
    (x0 : Vec F S1024x512 .bf16) (x1 : Vec F S2048x512 .bf16) (x2 : Vec F S1024x1 .f32) (x3 : Vec F S1x2048 .f32) (x4 : Vec F S1024x1 .f32) :
    { LS : List (View.Piece (Elt F) S1024x1 .f32) //
      ∀ (xo : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__pp_sum_kernel i arg2 harg2 arg3 harg3 arg4 harg4 arg5 harg5 arg6 harg6 arg7 harg7 arg8 harg8) K } := by
  refine ⟨?_, fun xo E K => ?run⟩
  case run =>
    simp only [cc0__pp_sum_kernel_eq_skeleton]; unfold cc0__pp_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

set_option maxHeartbeats 2000000 in
/-- A last stretch: the accumulator, found at `xs`, is overwritten, and what it then holds is stored over the whole
    output buffer, found at anything. -/
noncomputable def runLast (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬first i) (hc2 : last i)
    (x0 : Vec F S1024x512 .bf16) (x1 : Vec F S2048x512 .bf16) (x2 : Vec F S1024x1 .f32) (x3 : Vec F S1x2048 .f32) (x4 : Vec F S1024x1 .f32) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__pp_sum_kernel i arg2 harg2 arg3 harg3 arg4 harg4 arg5 harg5 arg6 harg6 arg7 harg7 arg8 harg8) K } := by
  refine ⟨?_, ?_, fun E K => ?run⟩
  case run =>
    simp only [cc0__pp_sum_kernel_eq_skeleton]; unfold cc0__pp_sum_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.Kernel.Hand

end
-- ==== Proof.KBData.lean ====
/-
  The pipeline's proof data: the blocks the body finds, what the accumulator holds after each grid point and what the
  output buffer holds after each last stretch, the invariant between points, and the body obligation.
-/
import proofs.«180175_j71476845740753_2_alg».proof.Proof.Gen.Kernel.Launch
import proofs.«180175_j71476845740753_2_alg».proof.Proof.Gen.Kernel.Skeleton
import proofs.«180175_j71476845740753_2_alg».proof.Proof.Gen.Kernel.Points
import proofs.«180175_j71476845740753_2_alg».proof.Proof.KBRuns
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, and the accumulator. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev scM : Memref sig .tc .vmem S1024x1 .f32 := Memref.whole cc0_scratch0
/-- The views through which the accumulator's and the output buffer's contents are stated. -/
abbrev VS : View sig .tc .vmem S1024x1 .f32 := scM.view
abbrev VO : View sig .tc .vmem S1024x1 .f32 := (Memref.whole cc0_stg5_0 : Memref sig .tc .vmem S1024x1 .f32).view

/-- The region's invariant with the accumulator as a buffer owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What each case leaves -/

theorem coverFirst (c : Dev nD) (t : Fin cfg0.N) (hc1 : first (grid0.coords t)) (hc2 : ¬last (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t)).1, y ∈ pc.1.set :=
  View.cover_of_tiledL _ S1024x1.size (by sl_kernel_rfl) y
/-- The accumulator after a first stretch. -/
def accFirst (c : Dev nD) (t : Fin cfg0.N) (hc1 : first (grid0.coords t)) (hc2 : ¬last (grid0.coords t)) : Vec F S1024x1 .f32 :=
  VS.read (Elt F) (VS.writes (Elt F) VS.junk (runFirst c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t)).1)

theorem coverMid (c : Dev nD) (t : Fin cfg0.N) (hc1 : ¬first (grid0.coords t)) (hc2 : ¬last (grid0.coords t)) (xs : Vec F S1024x1 .f32) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1, y ∈ pc.1.set :=
  View.cover_of_tiledL _ S1024x1.size (by sl_kernel_rfl) y
/-- The accumulator after a middle stretch that found it at `xs`. -/
def accMid (c : Dev nD) (t : Fin cfg0.N) (hc1 : ¬first (grid0.coords t)) (hc2 : ¬last (grid0.coords t)) (xs : Vec F S1024x1 .f32) : Vec F S1024x1 .f32 :=
  VS.read (Elt F) (VS.writes (Elt F) VS.junk (runMid c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1)

theorem coverLastS (c : Dev nD) (t : Fin cfg0.N) (hc1 : ¬first (grid0.coords t)) (hc2 : last (grid0.coords t)) (xs : Vec F S1024x1 .f32) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).2.1, y ∈ pc.1.set :=
  View.cover_of_tiledL _ S1024x1.size (by sl_kernel_rfl) y
theorem coverLastO (c : Dev nD) (t : Fin cfg0.N) (hc1 : ¬first (grid0.coords t)) (hc2 : last (grid0.coords t)) (xs : Vec F S1024x1 .f32) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1, y ∈ pc.1.set :=
  View.cover_of_tiledL _ S1024x1.size (by sl_kernel_rfl) y
/-- The accumulator after a last stretch that found it at `xs`, -/
def accLast (c : Dev nD) (t : Fin cfg0.N) (hc1 : ¬first (grid0.coords t)) (hc2 : last (grid0.coords t)) (xs : Vec F S1024x1 .f32) : Vec F S1024x1 .f32 :=
  VS.read (Elt F) (VS.writes (Elt F) VS.junk (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).2.1)
/-- and the output buffer after it. -/
def outLast (c : Dev nD) (t : Fin cfg0.N) (hc1 : ¬first (grid0.coords t)) (hc2 : last (grid0.coords t)) (xs : Vec F S1024x1 .f32) : Vec F S1024x1 .f32 :=
  VO.read (Elt F) (VO.writes (Elt F) VO.junk (runLast c (grid0.coords t) (ms0 t) (hs0 t) (ms1 t) (hs1 t) (ms2 t) (hs2 t) (ms3 t) (hs3 t) (ms4 t) (hs4 t) (ms5 t) (hs5 t) scM (Memref.isWhole_whole _) hc1 hc2 (iblk m c 0 t) (iblk m c 1 t) (iblk m c 2 t) (iblk m c 3 t) (iblk m c 4 t) xs).1)

/-! ## The accumulator and the output buffer, point by point -/

/-- What the accumulator holds after the body at position `n`: a first stretch starts afresh, a later stretch builds
    on what the stretch before left. -/
def accAt (c : Dev nD) : (n : ℕ) → n < cfg0.N → Vec F S1024x1 .f32
  | 0, hn => accFirst m c ⟨0, hn⟩ ((first_iff ⟨0, hn⟩).mpr (Nat.zero_mod _)) (fun h => (fun h => by (try dsimp only at h); omega) ((last_iff ⟨0, hn⟩).mp h))
  | n + 1, hn =>
    if h0 : (n + 1) % 4 = 0 then
      accFirst m c ⟨n + 1, hn⟩ ((first_iff ⟨n + 1, hn⟩).mpr h0) (fun h => (fun h => by (try dsimp only at h); omega) ((last_iff ⟨n + 1, hn⟩).mp h))
    else if h3 : (n + 1) % 4 = 3 then
      accLast m c ⟨n + 1, hn⟩ (fun h => h0 ((first_iff ⟨n + 1, hn⟩).mp h)) ((last_iff ⟨n + 1, hn⟩).mpr h3) (accAt c n (Nat.lt_of_succ_lt hn))
    else
      accMid m c ⟨n + 1, hn⟩ (fun h => h0 ((first_iff ⟨n + 1, hn⟩).mp h)) (fun h => h3 ((last_iff ⟨n + 1, hn⟩).mp h)) (accAt c n (Nat.lt_of_succ_lt hn))

theorem accAt_first (c : Dev nD) (t : Fin cfg0.N) (h0 : t.val % 4 = 0) :
    accAt m c t.val t.isLt = accFirst m c t ((first_iff t).mpr h0) (fun h => (fun h => by omega) ((last_iff t).mp h)) := by
  obtain ⟨n, hn⟩ := t
  cases n with
  | zero => rfl
  | succ n => exact dif_pos h0

theorem accAt_mid (c : Dev nD) (t : Fin cfg0.N) (h0 : ¬t.val % 4 = 0) (h3 : ¬t.val % 4 = 3) :
    accAt m c t.val t.isLt = accMid m c t (fun h => h0 ((first_iff t).mp h)) (fun h => h3 ((last_iff t).mp h))
      (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h3)

theorem accAt_last (c : Dev nD) (t : Fin cfg0.N) (h0 : ¬t.val % 4 = 0) (h3 : t.val % 4 = 3) :
    accAt m c t.val t.isLt = accLast m c t (fun h => h0 ((first_iff t).mp h)) ((last_iff t).mpr h3)
      (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h3)

/-- What the output buffer holds after the body at point `t`: at a last stretch what that case stored; elsewhere the
    buffer is not stored into, and this value is not consulted. -/
def outAt (c : Dev nD) (t : Fin cfg0.N) : Vec F S1024x1 .f32 :=
  if h3 : t.val % 4 = 3 then
    outLast m c t (fun h => (fun h => by omega) ((first_iff t).mp h)) ((last_iff t).mpr h3)
      (accAt m c (t.val - 1) (Nat.lt_of_le_of_lt (Nat.sub_le _ _) t.isLt))
  else VO.read (Elt F) VO.junk

/-- The invariant before position `n`: before the first point the accumulator at anything; afterwards at what the point
    before left. The generator register rides along at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input buffer at its block, the output buffer at `outAt`; the
    invariant `PhiS`; nothing owed. The two windows on the array of unit rows hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- An input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.Kernel.Hand

end
-- ==== Proof.KBBody.lean ====
/-
  The body obligation: at every grid point the body, called on the windows' current staging buffers holding their blocks
  and on the accumulator as the point before left it, runs to the next point's invariant.
-/
import proofs.«180175_j71476845740753_2_alg».proof.Proof.Gen.Kernel.Launch
import proofs.«180175_j71476845740753_2_alg».proof.Proof.Gen.Kernel.Skeleton
import proofs.«180175_j71476845740753_2_alg».proof.Proof.Gen.Kernel.Points
import proofs.«180175_j71476845740753_2_alg».proof.Proof.KBData
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's position in its row block says which case
    runs; the accumulator is handed over at what the point before left (at anything before the first point) and taken back
    at this point's contents; the output buffer is handed back untouched off a last stretch and fully stored at one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 32 := lt_of_lt_of_eq t.isLt (show cfg0.N = 32 from N_0)
  by_cases h0 : t.val % 4 = 0
  · have h3 : ¬t.val % 4 = 3 := by omega
    rw [Dat.leavesExact_idle (dats m 0 c) 5 t (idle5 t (fun h => h3 ((last_iff t).mp h))) (noFlush5 t (fun h => h3 ((last_iff t).mp h)))]
    rw [accAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h0) (fun h => h3 ((last_iff t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h0) (fun h => h3 ((last_iff t).mp h)) (iblk m c 0 t) (iblk m c 1 t) (iblk m c 2 t) (iblk m c 3 t) (iblk m c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst m c t _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h3 : t.val % 4 = 3
    · rw [show (dats m 0 c).leavesExact 5 t = owns (c : Thread nD τ) (ms5 t) fullShare ((dats m 0 c).after 5 t) from by
        unfold Dat.leavesExact; rw [live5 t ((last_iff t).mpr h3)], after5]
      rw [accAt_last m c t h0 h3]
      unfold outAt; rw [dif_pos h3]
      unfold accLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) scM (Memref.isWhole_whole _) (fun h => h0 ((first_iff t).mp h)) ((last_iff t).mpr h3) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverLastS m c t _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastO m c t _ _ _)
    · rw [Dat.leavesExact_idle (dats m 0 c) 5 t (idle5 t (fun h => h3 ((last_iff t).mp h))) (noFlush5 t (fun h => h3 ((last_iff t).mp h)))]
      rw [accAt_mid m c t h0 h3]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) scM (Memref.isWhole_whole _) (fun h => h0 ((first_iff t).mp h)) (fun h => h3 ((last_iff t).mp h)) (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverMid m c t _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulator holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

end Cert.Kernel.Hand

end
-- ==== Proof.KBArgs.lean ====
/-
  The buffers that bypass the region, and what the two host stretches write.

  The run's final contents are the opening host stretch's, then the region's output array set to what the region
  leaves, then the closing stretch's.  Each host operation writes its own result buffer and nothing else, so a buffer
  that is no operation's result — an argument of the program — holds at the end what it held at the start; setting one
  buffer changes that buffer and no other; and the closing stretch writes none of the six windows' arrays.  The arguments
  and the program's result are unscoped buffers that are no window's array.
-/
import proofs.«180175_j71476845740753_2_alg».proof.Proof.KBData
import Idealize.ShloMosaic.Lib.StableHlo.Run
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

/-- The result buffers of the opening stretch's 57 operations, in order. -/
abbrev written0 : List (Ref sig .tc) :=
  [
    main_v0, main_cst, main_v1, main_v2, main_v3, main_cst_0, main_v4, main_v5, main_v6, main_v7,
    main_v8, main_cst_1, main_v9, main_v10, main_v11, main_cst_2, main_v12, main_v13, main_v14, main_v15,
    main_v16, main_v17, main_v18, main_v19, main_v20, main_cst_3, main_v21, main_v22, main_cst_4, main_v23,
    main_v24, main_cst_5, main_v25, main_v26, main_v27, main_cst_6, main_v28, main_v29, main_cst_7, main_v30,
    main_v31, main_v32, main_v33, main_v34, main_v35, main_v36, main_cst_8, main_v37, main_v38, main_v39,
    main_cst_9, main_v40, main_v41, main_v42, main_cst_10, main_v43, main_v44 ]
/-- The result buffers of the closing stretch's 6 operations, in order. -/
abbrev written1 : List (Ref sig .tc) :=
  [ main_cst_11, main_v46, main_cst_12, main_v47, main_cst_13, main_v48 ]

/-- Every operation of the opening stretch writes one of those buffers only. -/
theorem writes0 : (hostOps0 : List (HloOp τ sig (Elt F))).Forall
    fun op => op.writes ⊆ (written0.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-- Every operation of the closing stretch writes one of those buffers only. -/
theorem writes1 : (hostOps1 : List (HloOp τ sig (Elt F))).Forall
    fun op => op.writes ⊆ (written1.map (Proc.devRef (τ := τ) .tc)).toFinset := by
  simp only [List.Forall, StableHlo.nullary_writes, StableHlo.binary_writes, Finset.singleton_subset_iff,
    List.mem_toFinset]
  repeat' apply And.intro
  all_goals exact List.mem_map_of_mem (by decide)

/-- No host operation writes a buffer afresh. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- No window's array is a result buffer of the closing stretch. -/
theorem arr_not_written1 : ∀ w : Fin 6, Pipeline.arrRef spec0 w ∉ written1 := by decide

/-- The closing stretch writes none of the six windows' arrays. -/
theorem tail_keeps (w : Fin 6) :
    ∀ op ∈ (hostOps1 : List (HloOp τ sig (Elt F))), Proc.devRef .tc (Pipeline.arrRef spec0 w) ∉ op.writes := by
  intro op hop hb
  obtain ⟨y, hy, he⟩ :=
    List.mem_map.mp (List.mem_toFinset.mp ((List.forall_iff_forall_mem.mp (writes1 (F := F))) op hop hb))
  exact arr_not_written1 w (Proc.devRef_injective _ he ▸ hy)

/-! ## Setting the region's output array -/

variable (W : Valuation τ sig (Elt F)) (X : main_v45.ty.Contents (Elt F))

/-- The valuation set at the output array holds the new contents there, -/
theorem upd_v45 :
    (StableHlo.nullary main_v45 X : HloOp τ sig (Elt F)).result W (Proc.devRef .tc main_v45) = X :=
  StableHlo.nullary_result main_v45 X _ W

/-- and the old contents at every other buffer. -/
theorem upd_ne (r : Ref sig .tc) (h : r ≠ main_v45) :
    (StableHlo.nullary main_v45 X : HloOp τ sig (Elt F)).result W (Proc.devRef .tc r) = W (Proc.devRef .tc r) :=
  StableHlo.nullary_result_ne main_v45 X _ W h

/-! ## The arguments come through unchanged -/

/-- The one-stretch list of lists flattens to the stretch. -/
theorem flatten0 : List.flatten [(hostOps0 : List (HloOp τ sig (Elt F)))] = hostOps0 := by
  simp only [List.flatten_cons, List.flatten_nil, List.append_nil]

/-- A buffer that neither stretch writes and that is not the output array holds at the end what it held at the start. -/
theorem keep_of (r : Ref sig .tc) (h0 : r ∉ written0) (h1 : r ∉ written1) (h : r ≠ main_v45) :
    StableHlo.after hostOps1 ((StableHlo.nullary main_v45 X : HloOp τ sig (Elt F)).result
      (StableHlo.after (List.flatten [hostOps0]) W)) (Proc.devRef .tc r) = W (Proc.devRef .tc r) := by
  rw [StableHlo.after_of_writes_sub hostOps1 _ writes1 h1, upd_ne _ X r h, flatten0,
    StableHlo.after_of_writes_sub hostOps0 _ writes0 h0]

theorem keep_arg0 :
    StableHlo.after hostOps1 ((StableHlo.nullary main_v45 X : HloOp τ sig (Elt F)).result
      (StableHlo.after (List.flatten [hostOps0]) W)) (Proc.devRef .tc main_arg0) = W (Proc.devRef .tc main_arg0) :=
  keep_of W X main_arg0 (by decide) (by decide) (by decide)

theorem keep_arg1 :
    StableHlo.after hostOps1 ((StableHlo.nullary main_v45 X : HloOp τ sig (Elt F)).result
      (StableHlo.after (List.flatten [hostOps0]) W)) (Proc.devRef .tc main_arg1) = W (Proc.devRef .tc main_arg1) :=
  keep_of W X main_arg1 (by decide) (by decide) (by decide)

/-! ## Buffers that bypass the region -/

theorem rest_arg0 : main_arg0 ∈ Pipeline.restRefs sig spec0 := Pipeline.mem_restRefs_of _ (by decide) (by decide)
theorem rest_arg1 : main_arg1 ∈ Pipeline.restRefs sig spec0 := Pipeline.mem_restRefs_of _ (by decide) (by decide)
theorem rest_v48 : main_v48 ∈ Pipeline.restRefs sig spec0 := Pipeline.mem_restRefs_of _ (by decide) (by decide)

end Cert.Kernel.Hand

end
-- ==== Proof.KBTail.lean ====
/-
  Around the kernel region: the arrays as a chain of holdings (the array two windows share held in halves), the dealing
  and joining of that array's share, and the closing stretch of host operations run from the region's exit.
-/
import proofs.«180175_j71476845740753_2_alg».proof.Proof.Gen.Kernel.Launch
import proofs.«180175_j71476845740753_2_alg».proof.Proof.Gen.Kernel.Skeleton
import proofs.«180175_j71476845740753_2_alg».proof.Proof.Gen.Kernel.Points
import proofs.«180175_j71476845740753_2_alg».proof.Proof.KBBody
import proofs.«180175_j71476845740753_2_alg».proof.Proof.KBArgs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the closing stretch, at the contents after the first stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by exact hostOps0_sub) (by exact hostOps0_fresh) main_chain

/-! ## The contents after the region and after the closing stretch -/

/-- The region-entry contents with the output array at what the region leaves in it. -/
abbrev Wx (c : Dev nD) : Valuation τ sig (Elt F) := (StableHlo.nullary main_v45 ((dats m 0 c).arrAt 5 cfg0.N)).result (V0 m c)
/-- The contents when @main returns. -/
abbrev Wend (c : Dev nD) : Valuation τ sig (Elt F) := StableHlo.after (List.flatten [hostOps1]) (Wx m c)

/-! ## The arrays, window by window -/

/-- The pipeline's arrays at contents `A`: the array of unit rows twice, at the two halves of the full share, and the
    other four whole. -/
theorem arrays_eq6 (c : Dev nD) (A : (w : Fin cfg0.W) → Buf (Elt F) ((cfg0.win w).arr.view.loc (c.tc : Thread nD τ))) :
    ((dats m 0 c).arrays A : sProp 𝕄) = iprop(((((c.tc : Thread nD τ).loc main_v18)) ↦{fullShare.left} A 0) ∗ ((((c.tc : Thread nD τ).loc main_v18)) ↦{fullShare.right} A 1)
      ∗ ((((c.tc : Thread nD τ).loc main_v29)) ↦{fullShare} A 2) ∗ ((((c.tc : Thread nD τ).loc main_v33)) ↦{fullShare} A 3) ∗ ((((c.tc : Thread nD τ).loc main_v44)) ↦{fullShare} A 4) ∗ ((((c.tc : Thread nD τ).loc main_v45)) ↦{fullShare} A 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

/-- The distinct buffers behind them, each whole. -/
theorem arrBufs_eq5 (c : Dev nD) (Vv : (b : Ref sig .tc) → Buf (Elt F) ((c.tc : Thread nD τ).loc b)) :
    (Pipeline.arrBufs spec0 c Vv : sProp 𝕄) = iprop(((((c.tc : Thread nD τ).loc main_v18)) ↦{fullShare} Vv main_v18) ∗ ((((c.tc : Thread nD τ).loc main_v29)) ↦{fullShare} Vv main_v29)
      ∗ ((((c.tc : Thread nD τ).loc main_v33)) ↦{fullShare} Vv main_v33) ∗ ((((c.tc : Thread nD τ).loc main_v44)) ↦{fullShare} Vv main_v44) ∗ ((((c.tc : Thread nD τ).loc main_v45)) ↦{fullShare} Vv main_v45)) := by
  unfold Pipeline.arrBufs
  exact bigSep_eq_bigSepL_of_eq [main_v18, main_v29, main_v33, main_v44, main_v45] (by decide) (by decide) _

/-- Dealing: the buffers behind the arrays, whole, are the pipeline's arrays — the shared one split in halves. -/
theorem parts_of_bufs (c : Dev nD) (Wv : Valuation τ sig (Elt F)) (A : (w : Fin cfg0.W) → Buf (Elt F) ((cfg0.win w).arr.view.loc (c.tc : Thread nD τ)))
    (h0 : A 0 = Wv (Proc.devRef .tc main_v18)) (h1 : A 1 = Wv (Proc.devRef .tc main_v18)) (h2 : A 2 = Wv (Proc.devRef .tc main_v29))
    (h3 : A 3 = Wv (Proc.devRef .tc main_v33)) (h4 : A 4 = Wv (Proc.devRef .tc main_v44)) (h5 : A 5 = Wv (Proc.devRef .tc main_v45)) :
    (Pipeline.arrBufs spec0 c (fun b => Wv (Proc.devRef .tc b)) : sProp 𝕄) ⊢ (dats m 0 c).arrays A := by
  rw [arrays_eq6, arrBufs_eq5, h0, h1, h2, h3, h4, h5]
  iintro ⟨H18, H29, H33, H44, H45⟩
  ihave H18 := (pointsTo_share (PosShare.mem_left_op_right fullShare)).1 $$ H18
  icases H18 with ⟨Ha, Hb⟩
  isplitl [Ha]; · iexact Ha
  isplitl [Hb]; · iexact Hb
  isplitl [H29]; · iexact H29
  isplitl [H33]; · iexact H33
  isplitl [H44]; · iexact H44
  iexact H45

/-- Joining: the converse, the two halves of the shared array holding the same contents. -/
theorem bufs_of_parts (c : Dev nD) (Wv : Valuation τ sig (Elt F)) (A : (w : Fin cfg0.W) → Buf (Elt F) ((cfg0.win w).arr.view.loc (c.tc : Thread nD τ)))
    (h0 : A 0 = Wv (Proc.devRef .tc main_v18)) (h1 : A 1 = Wv (Proc.devRef .tc main_v18)) (h2 : A 2 = Wv (Proc.devRef .tc main_v29))
    (h3 : A 3 = Wv (Proc.devRef .tc main_v33)) (h4 : A 4 = Wv (Proc.devRef .tc main_v44)) (h5 : A 5 = Wv (Proc.devRef .tc main_v45)) :
    ((dats m 0 c).arrays A : sProp 𝕄) ⊢ Pipeline.arrBufs spec0 c (fun b => Wv (Proc.devRef .tc b)) := by
  rw [arrays_eq6, arrBufs_eq5, h0, h1, h2, h3, h4, h5]
  iintro ⟨Ha, Hb, H29, H33, H44, H45⟩
  isplitl [Ha Hb]
  · iapply (pointsTo_share (PosShare.mem_left_op_right fullShare)).2
    isplitl [Ha] <;> iassumption
  isplitl [H29]; · iexact H29
  isplitl [H33]; · iexact H33
  isplitl [H44]; · iexact H44
  iexact H45

/-- At the region's entry. -/
theorem hsplit (c : Dev nD) : (Pipeline.arrBufs spec0 c (V m c) : sProp 𝕄) ⊢ (dats m 0 c).arrays ((dats m 0 c).arrAt · 0) :=
  parts_of_bufs m c (V0 m c) _ (A_eq m c 0) (A_eq m c 1) (A_eq m c 2) (A_eq m c 3) (A_eq m c 4) (A_eq m c 5)

/-! ## The closing stretch -/

/-- An input window's array ends as the region found it. -/
theorem arrAt_input (c : Dev nD) (w : Fin cfg0.W) (hw : (cfg0.win w).isOut = false) :
    (dats m 0 c).arrAt w cfg0.N = V m c (Pipeline.arrRef spec0 w) :=
  ((dats m 0 c).arrAt_in w hw _).trans (A_eq m c w)

theorem Wx_ne (c : Dev nD) (r : Ref sig .tc) (h : r ≠ main_v45) : Wx m c (Proc.devRef .tc r) = V0 m c (Proc.devRef .tc r) :=
  upd_ne (V0 m c) ((dats m 0 c).arrAt 5 cfg0.N) r h
theorem Wx_out (c : Dev nD) : Wx m c (Proc.devRef .tc main_v45) = (dats m 0 c).arrAt 5 cfg0.N :=
  upd_v45 (V0 m c) ((dats m 0 c).arrAt 5 cfg0.N)

/-- The closing stretch writes none of the windows' arrays. -/
theorem closing_keeps (w : Fin cfg0.W) : ∀ op ∈ (List.flatten [hostOps1] : List (HloOp τ sig (Elt F))), Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl
  all_goals fin_cases w <;> simp only [StableHlo.nullary_writes, StableHlo.unary_writes, StableHlo.binary_writes, Finset.mem_singleton] <;> exact StableHlo.devRef_ne_of_ne (by decide)

theorem Wend_arr (c : Dev nD) (w : Fin cfg0.W) : Wend m c (Proc.devRef .tc (Pipeline.arrRef spec0 w)) = Wx m c (Proc.devRef .tc (Pipeline.arrRef spec0 w)) :=
  StableHlo.after_of_forall_not_mem _ _ (closing_keeps w)

/-- The bypassing buffers are the same at the region-entry contents and with the output array updated. -/
theorem rest_Wx (c : Dev nD) : (Pipeline.unscopedRest spec0 c (V m c) : sProp 𝕄) = Pipeline.unscopedRest spec0 c (fun b => Wx m c (Proc.devRef .tc b)) := by
  unfold Pipeline.unscopedRest
  exact bigSep_congr fun b hb => by
    beta_reduce
    rw [Wx_ne m c b fun e => (Finset.mem_sdiff.mp hb).2 (Finset.mem_image.mpr ⟨5, Finset.mem_univ _, e.symm⟩)]

set_option maxHeartbeats 4000000 in
set_option backward.isDefEq.respectTransparency.types false in
/-- From the region's exit the closing stretch runs within the core's unscoped buffers — the shared array joined again —
    and hands back the arrays as the region left them and the bypassing buffers at the final contents. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (fun b => Wend m c (Proc.devRef .tc b))) -∗ Q' ⟨⟩)
        ∗ boundary (c.tc : Thread nD τ) ∗ (dats m 0 c).arrays ((dats m 0 c).arrAt · cfg0.N) ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  rw [Pipeline.unscopedRestP_none, Pipeline.unscopedRestP_none, rest_Wx]
  have hU : ∀ Wv : Valuation τ sig (Elt F), (unscopedBufs c (fun b => Wv (Proc.devRef .tc b)) : sProp 𝕄)
      = iprop(Pipeline.arrBufs spec0 c (fun b => Wv (Proc.devRef .tc b)) ∗ Pipeline.unscopedRest spec0 c (fun b => Wv (Proc.devRef .tc b))) :=
    fun Wv => Pipeline.unscopedBufs_split₀ cfgs (0 : Fin 1) winFacts₀0.arr_unscoped c _
  have hin5 : ∀ w : Fin cfg0.W, (cfg0.win w).isOut = false → w ≠ 5 → (dats m 0 c).arrAt w cfg0.N = Wx m c (Proc.devRef .tc (Pipeline.arrRef spec0 w)) := fun w hw hne => by
    rw [arrAt_input m c w hw]
    exact (Wx_ne m c _ (by revert hne; fin_cases w <;> decide)).symm
  rw [← List.append_nil ([hostOps1].map StableHlo.seq)]
  iintro ⟨Hk, Hb, Ha, Hr⟩
  ihave Ha := (bufs_of_parts m c (Wx m c) _ (hin5 0 rfl (by decide)) (hin5 1 rfl (by decide)) (hin5 2 rfl (by decide)) (hin5 3 rfl (by decide)) (hin5 4 rfl (by decide)) (Wx_out m c).symm) $$ Ha
  iapply (Pipeline.wp_seqs_then (fun q => (cfgs q).toPCfg (Val := Elt F)) defs₀ Variants.none c (Pipeline.ucRefs τ sig) [] [hostOps1]
    (fun ops ho op h => by rcases List.mem_singleton.mp ho with rfl; exact Pipeline.sub_ucRefs op ((List.forall_iff_forall_mem.mp hostOps1_sub) op h))
    (fun ops ho op h => by rcases List.mem_singleton.mp ho with rfl; exact (List.forall_iff_forall_mem.mp hostOps1_fresh) op h)
    (Wx m c)) $$ [Hb Ha Hr]
  · isplitl [Hb]; · iexact Hb
    rw [← Pipeline.unscopedBufs_held, hU]
    isplitl [Ha] <;> iassumption
  iintro Hb
  rw [Pipeline.chain_nil, wp_pure]
  imodintro
  iapply Hk
  icases Hb with ⟨-, H⟩
  ihave H := (Entails.of_eq ((Pipeline.unscopedBufs_held (Ix := Unit) (Name := ℕ) (U := UR sig nD τ) (Lvl := ℕ) c
    (StableHlo.after (List.flatten [hostOps1]) (Wx m c))).symm.trans (hU _))) $$ H
  icases H with ⟨Ha, Hr⟩
  isplitl [Ha]
  · iapply (parts_of_bufs m c (Wend m c) _ ((hin5 0 rfl (by decide)).trans (Wend_arr m c 0).symm) ((hin5 1 rfl (by decide)).trans (Wend_arr m c 1).symm)
      ((hin5 2 rfl (by decide)).trans (Wend_arr m c 2).symm) ((hin5 3 rfl (by decide)).trans (Wend_arr m c 3).symm)
      ((hin5 4 rfl (by decide)).trans (Wend_arr m c 4).symm) ((Wx_out m c).symm.trans (Wend_arr m c 5).symm))
    iexact Ha
  iexact Hr

end Cert.Kernel.Hand

end
-- ==== Proof.KBLaunch.lean ====
/-
  The launch: @main is a stretch of host operations, the kernel region, and a closing stretch of host operations; the
  region is launched with the body obligation, the dealing of the shared array at entry and the closing stretch at exit.
-/
import proofs.«180175_j71476845740753_2_alg».proof.Proof.Gen.Kernel.Launch
import proofs.«180175_j71476845740753_2_alg».proof.Proof.Gen.Kernel.Skeleton
import proofs.«180175_j71476845740753_2_alg».proof.Proof.Gen.Kernel.Points
import proofs.«180175_j71476845740753_2_alg».proof.Proof.KBTail
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the run establishes: every buffer that bypasses the region ends at the final contents. -/
def Post : PUnit × MemSt nD τ sig (Elt F) → Prop := fun r =>
  ∀ c : Dev nD, ∀ b ∈ Pipeline.restRefsP sig Pipeline.Prefetch.none spec0, r.2.mem ((c.tc : Thread nD τ).loc b) = Wend m c (Proc.devRef .tc b)

set_option maxHeartbeats 4000000 in
set_option backward.isDefEq.respectTransparency.types false in
/-- At the compiled mesh, from any memory with zero counters: every weakly fair execution of @main on the TensorCores
    terminates, nothing faulting, and every buffer no window stages ends at the contents the two host stretches and the
    region's output give it. -/
theorem run_main : θ_run defs (onTc (τ := τ) (main (F := F))) (s₀ m ρ) (Post m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => (h c).2.2)

/-! ## What the run says of the arguments and of the result -/

theorem mem_restP {b : Ref sig .tc} (h : b ∈ Pipeline.restRefs sig spec0) : b ∈ Pipeline.restRefsP sig Pipeline.Prefetch.none spec0 :=
  Finset.mem_sdiff.mpr ⟨h, fun h' => by obtain ⟨k, -, -⟩ := Finset.mem_image.mp h'; exact k.elim0⟩

theorem flatten1 : (List.flatten [hostOps1] : List (HloOp τ sig (Elt F))) = hostOps1 := by
  simp only [List.flatten_cons, List.flatten_nil, List.append_nil]

/-- No operation of either stretch writes an argument, and the region's output is another array. -/
theorem final_arg0 (c : Dev nD) : Wend m c (Proc.devRef .tc main_arg0) = m ((c.tc : Thread nD τ).loc main_arg0) := by
  show StableHlo.after (List.flatten [hostOps1]) _ _ = _
  rw [flatten1]
  exact keep_arg0 (fun b => m (c, b)) _
theorem final_arg1 (c : Dev nD) : Wend m c (Proc.devRef .tc main_arg1) = m ((c.tc : Thread nD τ).loc main_arg1) := by
  show StableHlo.after (List.flatten [hostOps1]) _ _ = _
  rw [flatten1]
  exact keep_arg1 (fun b => m (c, b)) _

/-- The run with its post read at the result and at the two arguments. -/
theorem run_result : θ_run defs (onTc (τ := τ) (main (F := F))) ⟨m, fun _ => 0, ρ⟩ (fun r => ∀ c : Dev nD,
      r.2.mem ((c.tc : Thread nD τ).loc main_v48) = Wend m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v48 (mem_restP rest_v48), (h c main_arg0 (mem_restP rest_arg0)).trans (final_arg0 m c),
    (h c main_arg1 (mem_restP rest_arg1)).trans (final_arg1 m c)⟩) (run_main m ρ)

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.Hand

end
-- ==== Proof.KICover.lean ====
/-
  The output array after the run.  The output window's block at a grid point is the block of 1024 rows at the row block
  the point belongs to, and it is written back exactly at the last of the four column stretches of each row block.  Those
  eight blocks tile the 8192 rows, so when every written-back block is the restriction of ONE whole-array function, the
  array ends holding that function.
-/
import proofs.«180175_j71476845740753_2_alg».proof.Proof.KIData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The grid has 32 points: a point's position is below 32. -/
theorem outPoint_lt (t : Fin cfg0.N) : t.val < 32 := Nat.lt_of_lt_of_eq t.isLt N_0

/-- The output window's block index at a grid point: the point's row block on the rows, zero on the one column. -/
theorem outIndex : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- An index of the output array is in point `t`'s block iff each coordinate is in the block's range on its axis. -/
theorem mem_outBlk (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v45).slice (win0_5.rect t)).set ↔ _
  rw [View.set_slice_whole, Rect.mem_set_unit]
  exact Iff.rfl

/-- What a point writes back is all of what the body left in the output buffer: no transfer of the window is cut. -/
theorem flushed5 (c : Dev nD) (t : Fin cfg0.N) : (dats m 0 c).flushed 5 t = outAt m c t := by
  show (cfg0.win 5).cut (grid0.coords t) ((dats m 0 c).after 5 t) = _
  rw [after5]
  rfl

/-- The last stretch of row block `r`. -/
def lastOf (r : Fin 8) : Fin cfg0.N := ⟨4 * r.val + 3, Nat.lt_of_lt_of_eq (by have := r.isLt; omega) N_0.symm⟩

/-- Every index of the output array lies in the block written back at the last stretch of its row block. -/
theorem cover5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  refine ⟨lastOf ⟨(i 0).val / 1024, by omega⟩, (flush0_5 _).mpr (by show (4 * ((i 0).val / 1024) + 3) % 4 = 3; omega), ?_⟩
  rw [mem_outBlk]
  obtain ⟨e0, e1⟩ := outIndex (lastOf ⟨(i 0).val / 1024, by omega⟩)
  have e0' : win0_5.index (lastOf ⟨(i 0).val / 1024, by omega⟩) (0 : Fin 2) = (4 * ((i 0).val / 1024) + 3) / 4 := e0
  intro a
  match a with
  | ⟨0, _⟩ =>
    show win0_5.index (lastOf ⟨(i 0).val / 1024, by omega⟩) (0 : Fin 2) * 1024 ≤ (i 0).val
      ∧ (i 0).val < win0_5.index (lastOf ⟨(i 0).val / 1024, by omega⟩) (0 : Fin 2) * 1024 + 1024
    omega
  | ⟨1, _⟩ =>
    show win0_5.index (lastOf ⟨(i 0).val / 1024, by omega⟩) (1 : Fin 2) * 1 ≤ (i 1).val
      ∧ (i 1).val < win0_5.index (lastOf ⟨(i 0).val / 1024, by omega⟩) (1 : Fin 2) * 1 + 1
    omega

/-- THE OUTPUT ARRAY after the run is `G`, when every written-back block is `G`'s restriction to it. -/
theorem final5 (c : Dev nD) (G : Buf (Elt F) ((cfg0.win 5).arr.view.loc (c.tc : Thread nD τ)))
    (hG : ∀ t : Fin cfg0.N, t.val % 4 = 3 → outAt m c t = ((cfg0.win 5).blk t).view.read (Elt F) G) :
    (dats m 0 c).arrAt 5 cfg0.N = G :=
  (dats m 0 c).arrAt_eq_of_cover 5 G (fun t hf => (flushed5 m c t).trans (hG t ((flush0_5 t).mp hf))) cover5

/-- Row `p` of the block at point `t`, read off a whole-array function, is that function at row `1024 * (t / 4) + p`. -/
theorem read_outBlk (c : Dev nD) (G : Buf (Elt F) ((cfg0.win 5).arr.view.loc (c.tc : Thread nD τ)))
    (t : Fin cfg0.N) (p : Fin 1024) :
    ((cfg0.win 5).blk t).view.read (Elt F) G (ix2 p 0)
      = (G : S8192x1.Idx → Elt F .f32) (ix2 ⟨1024 * (t.val / 4) + p.val, by have := outPoint_lt t; have := p.isLt; omega⟩ 0) := by
  show (G : S8192x1.Idx → Elt F .f32) (((cfg0.win 5).blk t).view.emb (ix2 p 0)) = _
  refine congrArg (G : S8192x1.Idx → Elt F .f32) ?_
  obtain ⟨e0, e1⟩ := outIndex t
  funext a; apply Fin.ext
  match a with
  | ⟨0, _⟩ =>
    show win0_5.index t (0 : Fin 2) * 1024 + 1 * p.val = 1024 * (t.val / 4) + p.val
    omega
  | ⟨1, _⟩ =>
    show win0_5.index t (1 : Fin 2) * 1 + 1 * 0 = 0
    omega

end Cert.KernelIdeal.Hand

end
-- ==== Proof.KIPieces.lean ====
/-
  What the body's runs leave, as the body's two stored values.

  Every store of the body covers a whole 1024 × 1 buffer at zero offsets, and every load reads a whole buffer at zero
  offsets, so the last store's value is what a buffer ends holding and a load reads the contents as they are.  A middle
  and a last stretch leave in the accumulator the second stored value of the five input blocks and of what the accumulator
  held; a first stretch leaves that value of the blocks and of the zero column it has just been cleared to; at a last
  stretch the output buffer receives the accumulator's new contents.
-/
import proofs.«180175_j71476845740753_2_alg».proof.Proof.KIData
import Idealize.ShloMosaic.Lib.Pipeline.Value
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The zero offsets of a whole rectangle are the constant function zero. -/
theorem offsets00 : (![0, 0] : Fin 2 → Nat) = fun _ => 0 := funext fun a => by fin_cases a <;> rfl

/-- A middle stretch leaves in the accumulator the second stored value of the five blocks and of what it found there:
    one store over the whole buffer, its operands read through whole rectangles at zero offsets. -/
theorem accMid_eq (c : Dev nD) (t : Fin cfg0.N) (hc1 : ¬first (grid0.coords t)) (hc2 : ¬last (grid0.coords t)) (xs : Vec F S1024x1 .f32) :
    accMid m c t hc1 hc2 xs = k0_pay2 (iblk m c 0 t) (iblk m c 1 t) (iblk m c 2 t) (iblk m c 3 t) (iblk m c 4 t) xs := by
  unfold accMid
  rw [View.read_writes_eq_canon _ _ _ (coverMid m c t hc1 hc2 xs)]
  unfold runMid
  dsimp only
  rw [View.canon_unit_zero offsets00]
  simp only [View.readAt_eq_ld, (hs0 t).read_unread, (hs1 t).read_unread, (hs2 t).read_unread, (hs3 t).read_unread,
    (hs4 t).read_unread, (Memref.isWhole_whole cc0_scratch0).read_unread,
    View.ld_unit_zero (S := S1024x512) offsets00, View.ld_unit_zero (S := S2048x512) offsets00, View.ld_unit_zero (S := S1024x1) offsets00,
    View.ld_unit_zero (S := S1x2048) offsets00]

/-- A first stretch clears the accumulator to the first stored value, reads that back, and leaves the second stored
    value of the five blocks and of the cleared column: the later of the two whole stores is what remains. -/
theorem accFirst_eq (c : Dev nD) (t : Fin cfg0.N) (hc1 : first (grid0.coords t)) (hc2 : ¬last (grid0.coords t)) :
    accFirst m c t hc1 hc2 = k0_pay2 (iblk m c 0 t) (iblk m c 1 t) (iblk m c 2 t) (iblk m c 3 t) (iblk m c 4 t) (k0_pay1 (F := F)) := by
  unfold accFirst
  rw [View.read_writes_eq_canon _ _ _ (coverFirst m c t hc1 hc2)]
  unfold runFirst
  dsimp only
  sl_unfold_words
  rw [View.canon_cons_unit_zero (S := S1024x1) offsets00, View.readCov_unit_zero (S := S1024x1) _ offsets00]
  simp only [View.readAt_eq_ld, (hs0 t).read_unread, (hs1 t).read_unread, (hs2 t).read_unread, (hs3 t).read_unread,
    (hs4 t).read_unread, (Memref.isWhole_whole cc0_scratch0).read_unread,
    View.ld_unit_zero (S := S1024x512) offsets00, View.ld_unit_zero (S := S2048x512) offsets00, View.ld_unit_zero (S := S1024x1) offsets00,
    View.ld_unit_zero (S := S1x2048) offsets00]

/-- A last stretch leaves in the accumulator what a middle stretch does. -/
theorem accLast_eq (c : Dev nD) (t : Fin cfg0.N) (hc1 : ¬first (grid0.coords t)) (hc2 : last (grid0.coords t)) (xs : Vec F S1024x1 .f32) :
    accLast m c t hc1 hc2 xs = k0_pay2 (iblk m c 0 t) (iblk m c 1 t) (iblk m c 2 t) (iblk m c 3 t) (iblk m c 4 t) xs := by
  unfold accLast
  rw [View.read_writes_eq_canon _ _ _ (coverLastS m c t hc1 hc2 xs)]
  unfold runLast
  dsimp only
  sl_unfold_words
  rw [View.canon_unit_zero offsets00]
  simp only [View.readAt_eq_ld, (hs0 t).read_unread, (hs1 t).read_unread, (hs2 t).read_unread, (hs3 t).read_unread,
    (hs4 t).read_unread, (Memref.isWhole_whole cc0_scratch0).read_unread,
    View.ld_unit_zero (S := S1024x512) offsets00, View.ld_unit_zero (S := S2048x512) offsets00, View.ld_unit_zero (S := S1024x1) offsets00,
    View.ld_unit_zero (S := S1x2048) offsets00]

/-- And the output buffer receives a read-back of the whole accumulator after that store: the same value. -/
theorem outLast_eq (c : Dev nD) (t : Fin cfg0.N) (hc1 : ¬first (grid0.coords t)) (hc2 : last (grid0.coords t)) (xs : Vec F S1024x1 .f32) :
    outLast m c t hc1 hc2 xs = k0_pay2 (iblk m c 0 t) (iblk m c 1 t) (iblk m c 2 t) (iblk m c 3 t) (iblk m c 4 t) xs := by
  unfold outLast
  rw [View.read_writes_eq_canon _ _ _ (coverLastO m c t hc1 hc2 xs)]
  unfold runLast
  dsimp only
  sl_unfold_words
  rw [View.canon_unit_zero offsets00, View.readCov_unit_zero (S := S1024x1) _ offsets00]
  simp only [View.readAt_eq_ld, (hs0 t).read_unread, (hs1 t).read_unread, (hs2 t).read_unread, (hs3 t).read_unread,
    (hs4 t).read_unread, (Memref.isWhole_whole cc0_scratch0).read_unread,
    View.ld_unit_zero (S := S1024x512) offsets00, View.ld_unit_zero (S := S2048x512) offsets00, View.ld_unit_zero (S := S1024x1) offsets00,
    View.ld_unit_zero (S := S1x2048) offsets00]

end Cert.KernelIdeal.Hand

end
-- ==== Proof.Spec.lean ====
/-
  The nested pairwise-distance margin loss, as the two programs compute it on the extended reals.

  Rows of the two inputs are scaled to unit Euclidean length (the norm clamped below by a small
  constant), giving `P` (8192 rows) and `Q` (1024 rows).  For a pair of rows `i, j` of `P` the squared distance
  `‖P i - P j + e‖²` (`e` a constant added to every coordinate) is expanded through the Gram identity

      ‖x - y + e·1‖² = ‖x‖² + ‖y‖² - 2 x·y + 2e (Σx - Σy) + e²·d ,

  clamped below, and its root is compared with the distance of row `i` to row `0` of `Q`: the loss is the mean over
  all ordered pairs of `max 0 (d(i,j) + margin - d(i, Q 0))`, clamped below by zero.

  The two programs group the identity differently: one (`sqK`) collects the terms of row `i` and of row `j` apart
  before the inner product is subtracted, and adds the margin to the negated second distance first; the other (`sqR`)
  subtracts the inner product from the sum of the two norms, adds `2e` times the DIFFERENCE of the coordinate sums, and
  adds the margin to the first distance. The first also sums each row over four consecutive stretches of 2048 columns.
  Constants are kept as the float words both programs print.
-/
import Idealize.ShloMosaic.PureOps.Ideal
import Idealize.ShloMosaic.PureOps.Ideal.Laws
import Idealize.ShloMosaic.Lib.ValueIdx

noncomputable section

namespace Cert.Proof.PairLoss

open Idealize.ShloMosaic Idealize.ShloMosaic.ValueIdx

/-- A matrix of extended reals, indexed as the programs index a rank-two array. -/
abbrev Mat (n m : Nat) : Type := (⟨2, ![n, m]⟩ : Shape).Idx → EReal

/-- The lower clamp of a norm and of a squared distance. -/
abbrev cEps : EReal := Ideal.ofBits .f32 0x2B8CBCCC#32
/-- Twice the constant added to every coordinate of a difference. -/
abbrev cTwoE : EReal := Ideal.ofBits .f32 0x360637BD#32
/-- The squared constant times the row length. -/
abbrev cEsqD : EReal := Ideal.ofBits .f32 0x300CBCCC#32
/-- The constant added to every coordinate of a difference. -/
abbrev cE : EReal := Ideal.ofBits .f32 0x358637BD#32
/-- The margin. -/
abbrev cMargin : EReal := Ideal.ofBits .f32 0x3E4CCCCD#32
/-- Two. -/
abbrev cTwo : EReal := Ideal.ofBits .f32 0x40000000#32
/-- The number of ordered pairs of distinct rows. -/
abbrev cPairs : EReal := Ideal.ofBits .f32 0x4C7FF800#32

/-- The Euclidean norm of row `i`, clamped below. -/
def rowNorm {n : Nat} (x : Mat n 512) (i : Fin n) : EReal :=
  max (Ideal.sqrt (∑ k : Fin 512, x (ix2 i k) * x (ix2 i k))) cEps

/-- Row `i` scaled to unit length, at coordinate `k`. -/
def unit {n : Nat} (x : Mat n 512) (i : Fin n) (k : Fin 512) : EReal :=
  Ideal.div (x (ix2 i k)) (rowNorm x i)

variable (a : Mat 8192 512) (b : Mat 1024 512)

/-- The squared norm of unit row `i`. -/
def xx (i : Fin 8192) : EReal := ∑ k : Fin 512, unit a i k * unit a i k
/-- The coordinate sum of unit row `i`. -/
def sx (i : Fin 8192) : EReal := ∑ k : Fin 512, unit a i k
/-- The inner product of unit rows `i` and `j`. -/
def gram (i j : Fin 8192) : EReal := ∑ k : Fin 512, unit a i k * unit a j k
/-- The distance of unit row `i` to the first unit row of the second input. -/
def dNeg (i : Fin 8192) : EReal :=
  Ideal.sqrt (∑ k : Fin 512, ((unit a i k - unit b 0 k) + cE) * ((unit a i k - unit b 0 k) + cE))

/-- The squared distance of rows `i`, `j`, the terms of each row collected first. -/
def sqK (i j : Fin 8192) : EReal :=
  (((xx a i + cTwoE * sx a i) + cEsqD) + (xx a j - cTwoE * sx a j)) - cTwo * gram a i j
/-- The same, the inner product subtracted from the two norms first. -/
def sqR (i j : Fin 8192) : EReal :=
  (((xx a i + xx a j) - cTwo * gram a i j) + cTwoE * (sx a i - sx a j)) + cEsqD

/-- The hinge of a pair, the margin joined to the negated second distance first. -/
def hingeK (i j : Fin 8192) : EReal :=
  max 0 (Ideal.sqrt (max (sqK a i j) cEps) + (cMargin - dNeg a b i))
/-- The hinge of a pair, the margin joined to the first distance first. -/
def hingeR (i j : Fin 8192) : EReal :=
  max 0 ((Ideal.sqrt (max (sqR a i j) cEps) + cMargin) - dNeg a b i)

/-- Column `q` of the `t`-th stretch of 2048 columns. -/
def col (t : Fin 4) (q : Fin 2048) : Fin 8192 := ⟨2048 * t.val + q.val, by have := t.isLt; have := q.isLt; omega⟩

/-- The hinges of row `i` over one stretch of columns. -/
def stretch (i : Fin 8192) (t : Fin 4) : EReal := ∑ q : Fin 2048, hingeK a b i (col t q)

/-- Row `i`'s hinges, accumulated stretch after stretch from zero. -/
def rowK (i : Fin 8192) : EReal :=
  (((0 + stretch a b i 0) + stretch a b i 1) + stretch a b i 2) + stretch a b i 3

/-- The loss, row sums first. -/
def lossK : EReal := max (Ideal.div (∑ i : Fin 8192, rowK a b i) cPairs) 0
/-- The loss, all pairs at once. -/
def lossR : EReal := max (Ideal.div (∑ j : (⟨2, ![8192, 8192]⟩ : Shape).Idx, hingeR a b (j 0) (j 1)) cPairs) 0

end Cert.Proof.PairLoss

end
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.KerPay.lean ====
/-
  The two values the kernel's body stores, read at an index on the extended reals.

  The first is the zero column.  The second, at row `p`, is the accumulator's entry plus the sum over the 2048 lanes `q` of
  `max 0 (√(max (r p + c q − 2 · ⟨x p, y q⟩) ε) + m p)`: `r` a column and `c` a row of squared-norm terms, `⟨x p, y q⟩` the
  inner product of row `p` of the left block and row `q` of the right block over their 512 coordinates, `m` a column
  of margin terms.  The product contracts the second axis of both blocks; the column and row terms are spread over the
  1024 × 2048 tile; the lane sum is kept as a column.
-/
import proofs.«180175_j71476845740753_2_alg».proof.Proof.Gen.KernelIdeal.Skeleton
import proofs.«180175_j71476845740753_2_alg».proof.Proof.Spec
import proofs.«180175_j71476845740753_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Proof.KerPay

open Idealize.ShloMosaic Idealize.ShloMosaic.ValueIdx Cert.KernelIdeal Cert.Proof.PairLoss

/-- The first stored value is the zero column. -/
theorem pay1_apply (j : S1024x1.Idx) : Cert.KernelIdeal.Gen.k0_pay1 (F := Ideal) j = 0 := by
  unfold Cert.KernelIdeal.Gen.k0_pay1
  exact (congrFun (shapeCast_self _ _) j).trans Ideal.ofBits_zero_f32

/-- The record of the product's dimension numbers: rows of the left block against rows of the right block. -/
abbrev D : DotDims S1024x512 S2048x512 S1024x2048 := dot_S1024x512_S2048x512_S1024x2048_1_1_0_0_n_n

theorem lhs_0 (i : S1024x2048.Idx) (c : D.contr.Idx) : (D.lhsIdx i c 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs_1 (i : S1024x2048.Idx) (c : D.contr.Idx) : (D.lhsIdx i c 1).val = (c ⟨0, by decide⟩).val :=
  D.lhsIdx_val_of_single rfl i c
theorem rhs_0 (i : S1024x2048.Idx) (c : D.contr.Idx) : (D.rhsIdx i c 0).val = (i 1).val := by
  unfold DotDims.rhsIdx
  rw [dif_neg (show ¬(0 : Fin S2048x512.rank) ∈ D.rhsBatch by decide), dif_pos (show (0 : Fin S2048x512.rank) ∈ D.rhsNonContracting by decide)]
  rfl
theorem rhs_1 (i : S1024x2048.Idx) (c : D.contr.Idx) : (D.rhsIdx i c 1).val = (c ⟨0, by decide⟩).val :=
  D.rhsIdx_val_of_single rfl i c

/-- The product into the zero accumulator, at row `p` and lane `q`: the inner product of row `p` of the left block
    and row `q` of the right block. -/
theorem gram_apply (x : FVec Ideal S1024x512 .bf16) (y : FVec Ideal S2048x512 .bf16) (p : Fin 1024) (q : Fin 2048) :
    matmul D none x y (constant (F := Ideal) S1024x2048 .f32 0x00000000#32) (ix2 p q)
      = ∑ k : Fin 512, x (ix2 p k) * y (ix2 q k) := by
  simp only [matmul]
  rw [Ideal.matmul_constant_zero_apply, ← Equiv.sum_comp (ValueIdx.contrEquiv1 D 512 rfl rfl).symm]
  refine Finset.sum_congr rfl fun k _ => ?_
  have hk := ValueIdx.contrEquiv1_symm_val D 512 rfl rfl k
  have el : D.lhsIdx (ix2 p q) ((ValueIdx.contrEquiv1 D 512 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 512 rfl rfl).symm k) = ix2 q k := funext fun a => Fin.ext (by
    match a with
    | ⟨0, _⟩ => exact rhs_0 _ _
    | ⟨1, _⟩ => exact (rhs_1 _ _).trans hk)
  rw [el, er]

/-- The sum along the lanes, at row `p`. -/
theorem laneSum_apply (src : FVec Ideal S1024x2048 .f32) (h : S1024x2048.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ q : Fin 2048, src (ix2 p q) :=
  (Ideal.multiReduction_add_single src 0x00000000#32 h hφ hacc (ix1 p)).trans
    (Finset.sum_congr rfl fun q _ => congrArg src (funext fun a => Fin.ext (by
      match a with
      | ⟨0, _⟩ => rfl
      | ⟨1, _⟩ => rfl)))

/-- The pointwise part at an index: the sum of the row and the column term less twice the product, clamped below,
    its root joined to the margin term, clamped below by zero. -/
theorem hinge_apply (r c g m : FVec Ideal S1024x2048 .f32) (i : S1024x2048.Idx) :
    maximumf (broadcast S1024x2048 (FloatOps.ofBits (F := Ideal) .f32 0x00000000#32))
        (addf (sqrt (maximumf (subf (addf r c) (mulf (broadcast S1024x2048 (FloatOps.ofBits (F := Ideal) .f32 0x40000000#32)) g))
          (broadcast S1024x2048 (FloatOps.ofBits (F := Ideal) .f32 0x2B8CBCCC#32)))) m) i
      = max 0 (Ideal.sqrt (max ((r i + c i) - cTwo * g i) cEps) + m i) := by
  show max (Ideal.ofBits .f32 0x00000000#32) (Ideal.sqrt (max ((r i + c i) - cTwo * g i) cEps) + m i) = _
  rw [Ideal.ofBits_zero_f32]

/-- The second stored value at row `p`: the accumulator there plus, over the lanes, the clamped root of the clamped
    squared distance joined to the row's margin term. -/
theorem pay2_apply (v3 : Vec Ideal S1024x512 .bf16) (v5 : Vec Ideal S2048x512 .bf16) (v8 : Vec Ideal S1024x1 .f32)
    (v10 : Vec Ideal S1x2048 .f32) (v12 : Vec Ideal S1024x1 .f32) (v29 : Vec Ideal S1024x1 .f32) (p : Fin 1024) :
    Cert.KernelIdeal.Gen.k0_pay2 (F := Ideal) v3 v5 v8 v10 v12 v29 (ix2 p 0)
      = v29 (ix2 p 0) + ∑ q : Fin 2048, max 0 (Ideal.sqrt (max ((v8 (ix2 p 0) + v10 (ix2 0 q))
          - cTwo * ∑ k : Fin 512, v3 (ix2 p k) * v5 (ix2 q k)) cEps) + v12 (ix2 p 0)) := by
  unfold Cert.KernelIdeal.Gen.k0_pay2
  refine (congrFun (shapeCast_self _ _) _).trans ?_
  refine congrArg (v29 (ix2 p 0) + ·) ?_
  refine (Cert.LibColumn.shapeCast_a_a1_apply _ _ p 0).trans ?_
  refine (laneSum_apply _ _ _ _ p).trans ?_
  refine Finset.sum_congr rfl fun q _ => ?_
  refine (hinge_apply _ _ _ _ (ix2 p q)).trans ?_
  rw [Cert.LibColumn.broadcastTo_a1_ab_apply, Cert.LibColumn.broadcastTo_a1_ab_apply, broadcastTo_1b_ab_apply,
    gram_apply, shapeCast_self, shapeCast_self, shapeCast_self, shapeCast_self, shapeCast_self]

end Cert.Proof.KerPay

end
-- ==== Proof.KerHost.lean ====
/-
  The host program around the region, read at an index on the extended reals.

  Before the region the program scales the rows of both inputs to unit Euclidean length (the norm clamped below),
  and prepares, from the unit rows `P` of the first input and the first unit row `q` of the second:
    • `P` itself, through a narrowing and a widening of the float format that change nothing on the extended reals;
    • for each row `i` the number `‖P i‖² + 2e·ΣP i + e²·d`, as a column;
    • for each row `j` the number `‖P j‖² − 2e·ΣP j`, as one row;
    • for each row `i` the margin less the distance `‖P i − q + e·1‖`, as a column.
  After the region it sums the region's column, divides by the number of ordered pairs and clamps below by zero.

  Every operation is a layout operation (a broadcast, a slice, a reshape, a transpose), an elementwise operation, or a
  row sum started from the zero word; each is read at an index written by its coordinates, and the stages are chained.
  The two inputs are written by no operation.
-/
import proofs.«180175_j71476845740753_2_alg».proof.Proof.Gen.KernelIdeal.Launch
import proofs.«180175_j71476845740753_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Proof.KerHost

open Cert.KernelIdeal Cert.KernelIdeal.Gen
open Idealize.ShloMosaic Idealize.ShloMosaic.TcCoe Idealize.SL.Sem Idealize.ShloMosaic.StableHlo Idealize.ShloMosaic.ValueIdx
open Cert.Proof.PairLoss

/-! ## Single operations read at coordinates

Each lemma reads one layout operation or one reduction of the host program at an index written by its coordinates,
over an arbitrary operand. -/

/-- A rank-zero constant spread over any shape is that constant's value everywhere. -/
theorem spread_apply {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply _ h _ j ix0 (fun a => a.elim0)

/-- A vector of 8192 entries laid out as a column. -/
theorem colA_apply (v : FVec Ideal S8192 .f32) (i : Fin 8192) :
    broadcastInDim S8192x1 ![0] bcast_S8192_S8192x1_0 v (ix2 i 0) = v (ix1 i) :=
  broadcastInDim_apply _ bcast_S8192_S8192x1_0 v (ix2 i 0) (ix1 i) (fun a => match a with
    | ⟨0, _⟩ => by show i.val = if (8192 : Nat) = 1 then 0 else i.val; rw [if_neg (by decide)])

/-- A vector of 1024 entries laid out as a column. -/
theorem colB_apply (v : FVec Ideal S1024 .f32) (i : Fin 1024) :
    broadcastInDim S1024x1 ![0] bcast_S1024_S1024x1_0 v (ix2 i 0) = v (ix1 i) :=
  broadcastInDim_apply _ bcast_S1024_S1024x1_0 v (ix2 i 0) (ix1 i) (fun a => match a with
    | ⟨0, _⟩ => by show i.val = if (1024 : Nat) = 1 then 0 else i.val; rw [if_neg (by decide)])

/-- A column repeated along every row of an 8192 × 512 matrix. -/
theorem rowsA_apply (c : FVec Ideal S8192x1 .f32) (i : Fin 8192) (k : Fin 512) :
    broadcastInDim S8192x512 ![0, 1] bcast_S8192x1_S8192x512_0_1 c (ix2 i k) = c (ix2 i 0) :=
  broadcastInDim_apply _ bcast_S8192x1_S8192x512_0_1 c (ix2 i k) (ix2 i 0) (fun a => match a with
    | ⟨0, _⟩ => by show i.val = if (8192 : Nat) = 1 then 0 else i.val; rw [if_neg (by decide)]
    | ⟨1, _⟩ => by show 0 = if (1 : Nat) = 1 then 0 else k.val; rw [if_pos rfl])

/-- A column repeated along every row of a 1024 × 512 matrix. -/
theorem rowsB_apply (c : FVec Ideal S1024x1 .f32) (i : Fin 1024) (k : Fin 512) :
    broadcastInDim S1024x512 ![0, 1] bcast_S1024x1_S1024x512_0_1 c (ix2 i k) = c (ix2 i 0) :=
  broadcastInDim_apply _ bcast_S1024x1_S1024x512_0_1 c (ix2 i k) (ix2 i 0) (fun a => match a with
    | ⟨0, _⟩ => by show i.val = if (1024 : Nat) = 1 then 0 else i.val; rw [if_neg (by decide)]
    | ⟨1, _⟩ => by show 0 = if (1 : Nat) = 1 then 0 else k.val; rw [if_pos rfl])

/-- A vector of 512 entries laid out as one row. -/
theorem oneRow_apply (v : FVec Ideal S512 .f32) (k : Fin 512) :
    broadcastInDim S1x512 ![1] bcast_S512_S1x512_1 v (ix2 0 k) = v (ix1 k) :=
  broadcastInDim_apply _ bcast_S512_S1x512_1 v (ix2 0 k) (ix1 k) (fun a => match a with
    | ⟨0, _⟩ => by show k.val = if (512 : Nat) = 1 then 0 else k.val; rw [if_neg (by decide)])

/-- One row repeated down the 8192 rows. -/
theorem downRows_apply (r : FVec Ideal S1x512 .f32) (i : Fin 8192) (k : Fin 512) :
    broadcastInDim S8192x512 ![0, 1] bcast_S1x512_S8192x512_0_1 r (ix2 i k) = r (ix2 0 k) :=
  broadcastInDim_apply _ bcast_S1x512_S8192x512_0_1 r (ix2 i k) (ix2 0 k) (fun a => match a with
    | ⟨0, _⟩ => by show 0 = if (1 : Nat) = 1 then 0 else i.val; rw [if_pos rfl]
    | ⟨1, _⟩ => by show k.val = if (512 : Nat) = 1 then 0 else k.val; rw [if_neg (by decide)])

/-- The sum of a row of an 8192 × 512 matrix, started from the zero word. -/
theorem sumRowA_apply (y : FVec Ideal S8192x512 .f32) (i : Fin 8192) :
    Host.reduceAdd y (constant (F := Ideal) S_ .f32 0x00000000#32) reducesTo_S8192x512_S8192_d1 h_S_ (ix1 i)
      = ∑ k : Fin 512, y (ix2 i k) := by
  simp only [Host.reduceAdd, Ideal.hostReduceAdd_def]
  rw [Ideal.hostReduceAdd_single reducesTo_S8192x512_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The sum of a row of a 1024 × 512 matrix, started from the zero word. -/
theorem sumRowB_apply (y : FVec Ideal S1024x512 .f32) (i : Fin 1024) :
    Host.reduceAdd y (constant (F := Ideal) S_ .f32 0x00000000#32) reducesTo_S1024x512_S1024_d1 h_S_ (ix1 i)
      = ∑ k : Fin 512, y (ix2 i k) := by
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The host square root at an index. -/
theorem hsqrt_apply {s : Shape} (x : FVec Ideal s .f32) (i : s.Idx) : Host.sqrt x i = Ideal.sqrt (x i) := rfl
/-- The host quotient at an index. -/
theorem hdiv_apply {s : Shape} (x y : FVec Ideal s .f32) (i : s.Idx) : Host.divf x y i = Ideal.div (x i) (y i) := rfl

/-! ## The stretch before the region, stage by stage

Each stage is the term the host operations compose for one buffer, as a function of the two inputs; the lemma after it
reads the stage at an index and names the result in the shared vocabulary (`rowNorm`, `unit`, `xx`, `sx`, `dNeg`). -/

section Stages

variable (x0 : FVec Ideal S8192x512 .f32) (x1 : FVec Ideal S1024x512 .f32)

/-- The clamped Euclidean norms of the first input's rows, as a column. -/
def normA : FVec Ideal S8192x1 .f32 :=
  maximumf
    (Host.sqrt (broadcastInDim S8192x1 ![0] bcast_S8192_S8192x1_0
      (Host.reduceAdd (mulf x0 x0) (constant (F := Ideal) S_ .f32 0x00000000#32) reducesTo_S8192x512_S8192_d1 h_S_)))
    (broadcastInDim S8192x1 ![] bcast_S_S8192x1 (constant (F := Ideal) S_ .f32 0x2B8CBCCC#32))

theorem normA_apply (i : Fin 8192) : normA x0 (ix2 i 0) = rowNorm x0 i := by
  unfold normA
  rw [maximumf_apply, hsqrt_apply, colA_apply, sumRowA_apply, spread_apply]
  rfl

/-- The first input's rows scaled to unit length. -/
def unitA : FVec Ideal S8192x512 .f32 :=
  Host.divf x0 (broadcastInDim S8192x512 ![0, 1] bcast_S8192x1_S8192x512_0_1 (normA x0))

theorem unitA_apply (i : Fin 8192) (k : Fin 512) : unitA x0 (ix2 i k) = unit x0 i k := by
  unfold unitA
  rw [hdiv_apply, rowsA_apply, normA_apply]
  rfl

/-- The clamped Euclidean norms of the second input's rows, as a column. -/
def normB : FVec Ideal S1024x1 .f32 :=
  maximumf
    (Host.sqrt (broadcastInDim S1024x1 ![0] bcast_S1024_S1024x1_0
      (Host.reduceAdd (mulf x1 x1) (constant (F := Ideal) S_ .f32 0x00000000#32) reducesTo_S1024x512_S1024_d1 h_S_)))
    (broadcastInDim S1024x1 ![] bcast_S_S1024x1 (constant (F := Ideal) S_ .f32 0x2B8CBCCC#32))

theorem normB_apply (i : Fin 1024) : normB x1 (ix2 i 0) = rowNorm x1 i := by
  unfold normB
  rw [maximumf_apply, hsqrt_apply, colB_apply, sumRowB_apply, spread_apply]
  rfl

/-- The second input's rows scaled to unit length. -/
def unitB : FVec Ideal S1024x512 .f32 :=
  Host.divf x1 (broadcastInDim S1024x512 ![0, 1] bcast_S1024x1_S1024x512_0_1 (normB x1))

theorem unitB_apply (i : Fin 1024) (k : Fin 512) : unitB x1 (ix2 i k) = unit x1 i k := by
  unfold unitB
  rw [hdiv_apply, rowsB_apply, normB_apply]
  rfl

/-- The first unit row of the second input, as a vector. -/
def rowB : FVec Ideal S512 .f32 :=
  shapeCast S512 (extractStridedSlice S1x512 ![0, 0] (unitB x1) slices_S1024x512_S1x512_0_0) shapeCasts_S1x512_S512

theorem rowB_apply (k : Fin 512) : rowB x1 (ix1 k) = unit x1 0 k := by
  unfold rowB
  rw [shapeCast_1a_a_apply, slice2_axis0_apply 0 _ slices_S1024x512_S1x512_0_0 (0 : Fin 1) k (0 : Fin 1024) rfl, unitB_apply]

/-- The unit rows of the first input in the narrow float format: the region's first two operands. -/
def pK : FVec Ideal S8192x512 .bf16 := truncf .bf16 (unitA x0) bitsLt_bf16_f32

theorem pK_apply (i : Fin 8192) (k : Fin 512) : pK x0 (ix2 i k) = unit x0 i k := unitA_apply x0 i k

/-- The same widened again. -/
def pF : FVec Ideal S8192x512 .f32 := extf .f32 (pK x0) bitsLt_bf16_f32

theorem pF_apply (i : Fin 8192) (k : Fin 512) : pF x0 (ix2 i k) = unit x0 i k := unitA_apply x0 i k

/-- The squared norms of the unit rows, as a column. -/
def xxC : FVec Ideal S8192x1 .f32 :=
  broadcastInDim S8192x1 ![0] bcast_S8192_S8192x1_0
    (Host.reduceAdd (mulf (pF x0) (pF x0)) (constant (F := Ideal) S_ .f32 0x00000000#32) reducesTo_S8192x512_S8192_d1 h_S_)

theorem xxC_apply (i : Fin 8192) : xxC x0 (ix2 i 0) = xx x0 i := by
  unfold xxC
  rw [colA_apply, sumRowA_apply]
  exact Finset.sum_congr rfl fun k _ => by rw [mulf_apply, pF_apply]

/-- The coordinate sums of the unit rows, as a column. -/
def sxC : FVec Ideal S8192x1 .f32 :=
  broadcastInDim S8192x1 ![0] bcast_S8192_S8192x1_0
    (Host.reduceAdd (pF x0) (constant (F := Ideal) S_ .f32 0x00000000#32) reducesTo_S8192x512_S8192_d1 h_S_)

theorem sxC_apply (i : Fin 8192) : sxC x0 (ix2 i 0) = sx x0 i := by
  unfold sxC
  rw [colA_apply, sumRowA_apply]
  exact Finset.sum_congr rfl fun k _ => pF_apply x0 i k

/-- The region's third operand: the terms of a pair's squared distance that belong to its first row. -/
def opA : FVec Ideal S8192x1 .f32 :=
  addf
    (addf (xxC x0)
      (mulf (broadcastInDim S8192x1 ![] bcast_S_S8192x1 (constant (F := Ideal) S_ .f32 0x360637BD#32)) (sxC x0)))
    (broadcastInDim S8192x1 ![] bcast_S_S8192x1 (constant (F := Ideal) S_ .f32 0x300CBCCC#32))

theorem opA_apply (i : Fin 8192) : opA x0 (ix2 i 0) = (xx x0 i + cTwoE * sx x0 i) + cEsqD := by
  unfold opA
  rw [addf_apply, addf_apply, mulf_apply, spread_apply, spread_apply, xxC_apply, sxC_apply]

/-- The region's fourth operand: the terms that belong to its second row, laid out as one row. -/
def opB : FVec Ideal S1x8192 .f32 :=
  transpose S1x8192 [1, 0]
    (subf (xxC x0)
      (mulf (broadcastInDim S8192x1 ![] bcast_S_S8192x1 (constant (F := Ideal) S_ .f32 0x360637BD#32)) (sxC x0)))
    transposes_S8192x1_S1x8192_1_0

theorem opB_apply (j : Fin 8192) : opB x0 (ix2 0 j) = xx x0 j - cTwoE * sx x0 j := by
  unfold opB
  rw [transpose_ix2_apply, subf_apply, mulf_apply, spread_apply, xxC_apply, sxC_apply]

/-- The region's fifth operand: the margin less the distance to the first unit row of the second input. -/
def opD : FVec Ideal S8192x1 .f32 :=
  subf (broadcastInDim S8192x1 ![] bcast_S_S8192x1 (constant (F := Ideal) S_ .f32 0x3E4CCCCD#32))
    (Host.sqrt (broadcastInDim S8192x1 ![0] bcast_S8192_S8192x1_0
      (Host.reduceAdd
        (mulf
          (addf
            (subf (unitA x0)
              (broadcastInDim S8192x512 ![0, 1] bcast_S1x512_S8192x512_0_1
                (broadcastInDim S1x512 ![1] bcast_S512_S1x512_1 (rowB x1))))
            (broadcastInDim S8192x512 ![] bcast_S_S8192x512 (constant (F := Ideal) S_ .f32 0x358637BD#32)))
          (addf
            (subf (unitA x0)
              (broadcastInDim S8192x512 ![0, 1] bcast_S1x512_S8192x512_0_1
                (broadcastInDim S1x512 ![1] bcast_S512_S1x512_1 (rowB x1))))
            (broadcastInDim S8192x512 ![] bcast_S_S8192x512 (constant (F := Ideal) S_ .f32 0x358637BD#32))))
        (constant (F := Ideal) S_ .f32 0x00000000#32) reducesTo_S8192x512_S8192_d1 h_S_)))

theorem opD_apply (i : Fin 8192) : opD x0 x1 (ix2 i 0) = cMargin - dNeg x0 x1 i := by
  unfold opD
  rw [subf_apply, spread_apply, hsqrt_apply, colA_apply, sumRowA_apply]
  refine congrArg (fun s => cMargin - Ideal.sqrt s) (Finset.sum_congr rfl fun k _ => ?_)
  rw [mulf_apply, addf_apply, subf_apply, spread_apply, downRows_apply, oneRow_apply, rowB_apply, unitA_apply]

end Stages

/-! ## The buffers after the stretch before the region

For any contents `W` of the device's buffers, each operand of the region holds the stage above of the two inputs, and
the inputs themselves are not written. -/

section Before

variable (W : Valuation Cert.KernelIdeal.τ Cert.KernelIdeal.sig (Elt Ideal))

/-- The first input is not written. -/
theorem before_arg0 :
    StableHlo.after (hostOps0 (F := Ideal)) W (Proc.devRef .tc main_arg0) = W (Proc.devRef .tc main_arg0) := by
  after_results_simp

/-- The second input is not written. -/
theorem before_arg1 :
    StableHlo.after (hostOps0 (F := Ideal)) W (Proc.devRef .tc main_arg1) = W (Proc.devRef .tc main_arg1) := by
  after_results_simp

theorem before_v18 :
    StableHlo.after (hostOps0 (F := Ideal)) W (Proc.devRef .tc main_v18) = pK (W (Proc.devRef .tc main_arg0)) := by
  after_results_simp <;> rfl

theorem before_v29 :
    StableHlo.after (hostOps0 (F := Ideal)) W (Proc.devRef .tc main_v29) = opA (W (Proc.devRef .tc main_arg0)) := by
  after_results_simp <;> rfl

theorem before_v33 :
    StableHlo.after (hostOps0 (F := Ideal)) W (Proc.devRef .tc main_v33) = opB (W (Proc.devRef .tc main_arg0)) := by
  after_results_simp <;> rfl

theorem before_v44 :
    StableHlo.after (hostOps0 (F := Ideal)) W (Proc.devRef .tc main_v44)
      = opD (W (Proc.devRef .tc main_arg0)) (W (Proc.devRef .tc main_arg1)) := by
  after_results_simp <;> rfl

/-- The region's first two operands hold the unit rows of the first input. -/
theorem v18_at (i : Fin 8192) (k : Fin 512) :
    (StableHlo.after (hostOps0 (F := Ideal)) W (Proc.devRef .tc main_v18) : S8192x512.Idx → EReal) (ix2 i k)
      = unit (W (Proc.devRef .tc main_arg0) : Mat 8192 512) i k := by
  rw [before_v18]; exact pK_apply _ i k

/-- The third operand. -/
theorem v29_at (i : Fin 8192) :
    (StableHlo.after (hostOps0 (F := Ideal)) W (Proc.devRef .tc main_v29) : S8192x1.Idx → EReal) (ix2 i 0)
      = (xx (W (Proc.devRef .tc main_arg0) : Mat 8192 512) i + cTwoE * sx (W (Proc.devRef .tc main_arg0) : Mat 8192 512) i) + cEsqD := by
  rw [before_v29]; exact opA_apply _ i

/-- The fourth operand. -/
theorem v33_at (j : Fin 8192) :
    (StableHlo.after (hostOps0 (F := Ideal)) W (Proc.devRef .tc main_v33) : S1x8192.Idx → EReal) (ix2 0 j)
      = xx (W (Proc.devRef .tc main_arg0) : Mat 8192 512) j - cTwoE * sx (W (Proc.devRef .tc main_arg0) : Mat 8192 512) j := by
  rw [before_v33]; exact opB_apply _ j

/-- The fifth operand. -/
theorem v44_at (i : Fin 8192) :
    (StableHlo.after (hostOps0 (F := Ideal)) W (Proc.devRef .tc main_v44) : S8192x1.Idx → EReal) (ix2 i 0)
      = cMargin - dNeg (W (Proc.devRef .tc main_arg0) : Mat 8192 512) (W (Proc.devRef .tc main_arg1) : Mat 1024 512) i := by
  rw [before_v44]; exact opD_apply _ _ i

end Before

/-! ## The stretch after the region -/

section After

variable (W' : Valuation Cert.KernelIdeal.τ Cert.KernelIdeal.sig (Elt Ideal))

/-- The first input is not written. -/
theorem after_arg0 :
    StableHlo.after (hostOps1 (F := Ideal)) W' (Proc.devRef .tc main_arg0) = W' (Proc.devRef .tc main_arg0) := by
  after_results_simp

/-- The second input is not written. -/
theorem after_arg1 :
    StableHlo.after (hostOps1 (F := Ideal)) W' (Proc.devRef .tc main_arg1) = W' (Proc.devRef .tc main_arg1) := by
  after_results_simp

/-- The region's result is not written. -/
theorem after_v45 :
    StableHlo.after (hostOps1 (F := Ideal)) W' (Proc.devRef .tc main_v45) = W' (Proc.devRef .tc main_v45) := by
  after_results_simp

/-- The sum of a column from the zero word is the sum of its entries. -/
theorem sumAll_apply (y : FVec Ideal S8192x1 .f32) (j : S_.Idx) :
    Host.reduceAdd y (constant (F := Ideal) S_ .f32 0x00000000#32) reducesTo_S8192x1_S_d0_1 h_S_ j
      = ∑ i : Fin 8192, y (ix2 i 0) := by
  simp only [Host.reduceAdd, Ideal.hostReduceAdd_def]
  rw [Ideal.hostReduceAdd_total reducesTo_S8192x1_S_d0_1 (fun b => b.elim0)]
  show Ideal.ofBits .f32 0x00000000#32 + _ = _
  rw [Ideal.ofBits_zero_f32, zero_add, sum_idx2]
  exact Finset.sum_congr rfl fun i _ => Fin.sum_univ_one _

/-- The result: the region's column summed, divided by the number of pairs, clamped below by zero. -/
theorem v48_at :
    (StableHlo.after (hostOps1 (F := Ideal)) W' (Proc.devRef .tc main_v48) : S_.Idx → EReal) ix0
      = max (Ideal.div (∑ i : Fin 8192, (W' (Proc.devRef .tc main_v45) : S8192x1.Idx → EReal) (ix2 i 0)) cPairs) 0 := by
  have e : StableHlo.after (hostOps1 (F := Ideal)) W' (Proc.devRef .tc main_v48)
      = maximumf
          (Host.divf
            (Host.reduceAdd (W' (Proc.devRef .tc main_v45)) (constant (F := Ideal) S_ .f32 0x00000000#32) reducesTo_S8192x1_S_d0_1 h_S_)
            (constant (F := Ideal) S_ .f32 0x4C7FF800#32))
          (constant (F := Ideal) S_ .f32 0x00000000#32) := by
    after_results_simp <;> rfl
  rw [e, maximumf_apply, hdiv_apply, sumAll_apply, constant_apply, constant_apply, Ideal.ofBits_zero_f32]

end After

end Cert.Proof.KerHost

end
-- ==== Proof.KIBlocks.lean ====
/-
  Where each window's block sits in its array.

  The grid has 8 row blocks and 4 column stretches, the stretch the fast coordinate: point `t` is row block `t / 4`,
  stretch `t % 4`.  A window that follows the row block reads rows `1024 (t / 4) …` of its array, one that follows
  the stretch reads rows (or, for the row vector, columns) `2048 (t % 4) …`.  A block's coordinate on an axis is the
  block index times the block's size there plus the coordinate inside the block; the block indices are decided once
  over the 32 grid points.
-/
import proofs.«180175_j71476845740753_2_alg».proof.Proof.KIData
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-- A grid point's number is below 32. -/
theorem point_lt (t : Fin cfg0.N) : t.val < 32 := Nat.lt_of_lt_of_eq t.isLt N_0

/-! ## The block indices, decided over the grid -/

/-- Window 0 follows the row block. -/
theorem index0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
/-- Window 1 follows the column stretch. -/
theorem index1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
/-- Window 2 follows the row block. -/
theorem index2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
/-- Window 3 follows the column stretch, along its second axis. -/
theorem index3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)
/-- Window 4 follows the row block. -/
theorem index4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)
/-- The output window follows the row block. -/
theorem index5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-! ## Each input block read at an index -/

/-- Window 0's block at point `t` is rows `1024 (t / 4) …` of the array of unit rows. -/
theorem iblk0_at (c : Dev nD) (t : Fin cfg0.N) (p : Fin 1024) (k : Fin 512) :
    (iblk m c 0 t : S1024x512.Idx → Elt F .bf16) (ix2 p k)
      = (V m c main_v18 : S8192x512.Idx → Elt F .bf16)
          (ix2 ⟨1024 * (t.val / 4) + p.val, by have := point_lt t; have := p.isLt; omega⟩ k) := by
  obtain ⟨e0, e1⟩ := index0 t
  unfold iblk
  rw [View.read_apply]
  show V m c main_v18 _ = V m c main_v18 _
  congr 1
  funext a
  apply Fin.ext
  match a with
  | ⟨0, _⟩ => show win0_0.index t 0 * 1024 + 1 * p.val = 1024 * (t.val / 4) + p.val; rw [e0]; omega
  | ⟨1, _⟩ => show win0_0.index t 1 * 512 + 1 * k.val = k.val; rw [e1]; omega

/-- Window 1's block at point `t` is rows `2048 (t % 4) …` of the array of unit rows. -/
theorem iblk1_at (c : Dev nD) (t : Fin cfg0.N) (q : Fin 2048) (k : Fin 512) :
    (iblk m c 1 t : S2048x512.Idx → Elt F .bf16) (ix2 q k)
      = (V m c main_v18 : S8192x512.Idx → Elt F .bf16)
          (ix2 ⟨2048 * (t.val % 4) + q.val, by have := q.isLt; omega⟩ k) := by
  obtain ⟨e0, e1⟩ := index1 t
  unfold iblk
  rw [View.read_apply]
  show V m c main_v18 _ = V m c main_v18 _
  congr 1
  funext a
  apply Fin.ext
  match a with
  | ⟨0, _⟩ => show win0_1.index t 0 * 2048 + 1 * q.val = 2048 * (t.val % 4) + q.val; rw [e0]; omega
  | ⟨1, _⟩ => show win0_1.index t 1 * 512 + 1 * k.val = k.val; rw [e1]; omega

/-- Window 2's block at point `t` is rows `1024 (t / 4) …` of its column. -/
theorem iblk2_at (c : Dev nD) (t : Fin cfg0.N) (p : Fin 1024) :
    (iblk m c 2 t : S1024x1.Idx → Elt F .f32) (ix2 p (0 : Fin 1))
      = (V m c main_v29 : S8192x1.Idx → Elt F .f32)
          (ix2 ⟨1024 * (t.val / 4) + p.val, by have := point_lt t; have := p.isLt; omega⟩ (0 : Fin 1)) := by
  obtain ⟨e0, e1⟩ := index2 t
  unfold iblk
  rw [View.read_apply]
  show V m c main_v29 _ = V m c main_v29 _
  congr 1
  funext a
  apply Fin.ext
  match a with
  | ⟨0, _⟩ => show win0_2.index t 0 * 1024 + 1 * p.val = 1024 * (t.val / 4) + p.val; rw [e0]; omega
  | ⟨1, _⟩ => show win0_2.index t 1 * 1 + 1 * 0 = 0; rw [e1]

/-- Window 3's block at point `t` is columns `2048 (t % 4) …` of its row. -/
theorem iblk3_at (c : Dev nD) (t : Fin cfg0.N) (q : Fin 2048) :
    (iblk m c 3 t : S1x2048.Idx → Elt F .f32) (ix2 (0 : Fin 1) q)
      = (V m c main_v33 : S1x8192.Idx → Elt F .f32)
          (ix2 (0 : Fin 1) ⟨2048 * (t.val % 4) + q.val, by have := q.isLt; omega⟩) := by
  obtain ⟨e0, e1⟩ := index3 t
  unfold iblk
  rw [View.read_apply]
  show V m c main_v33 _ = V m c main_v33 _
  congr 1
  funext a
  apply Fin.ext
  match a with
  | ⟨0, _⟩ => show win0_3.index t 0 * 1 + 1 * 0 = 0; rw [e0]
  | ⟨1, _⟩ => show win0_3.index t 1 * 2048 + 1 * q.val = 2048 * (t.val % 4) + q.val; rw [e1]; omega

/-- Window 4's block at point `t` is rows `1024 (t / 4) …` of its column. -/
theorem iblk4_at (c : Dev nD) (t : Fin cfg0.N) (p : Fin 1024) :
    (iblk m c 4 t : S1024x1.Idx → Elt F .f32) (ix2 p (0 : Fin 1))
      = (V m c main_v44 : S8192x1.Idx → Elt F .f32)
          (ix2 ⟨1024 * (t.val / 4) + p.val, by have := point_lt t; have := p.isLt; omega⟩ (0 : Fin 1)) := by
  obtain ⟨e0, e1⟩ := index4 t
  unfold iblk
  rw [View.read_apply]
  show V m c main_v44 _ = V m c main_v44 _
  congr 1
  funext a
  apply Fin.ext
  match a with
  | ⟨0, _⟩ => show win0_4.index t 0 * 1024 + 1 * p.val = 1024 * (t.val / 4) + p.val; rw [e0]; omega
  | ⟨1, _⟩ => show win0_4.index t 1 * 1 + 1 * 0 = 0; rw [e1]

end Cert.KernelIdeal.Hand

end
-- ==== Proof.KIValue.lean ====
/-
  The kernel's value on the extended reals: what the accumulator and the output buffer hold, in the shared vocabulary.

  The region finds, in its five input arrays, the host's stages of the two inputs: the unit rows `P`, for each row `i`
  the collected terms `‖P i‖² + 2e·ΣP i + e²·d` and `‖P i‖² − 2e·ΣP i`, and the margin less the distance to the first unit
  row of the second input.  The grid point `t` works on row block `t / 4` and column stretch `t % 4`; its blocks are rows
  `1024 (t / 4) + p` and `2048 (t % 4) + q` of those arrays.  So the body's summand at lane `q` of row `p` is the hinge
  of the pair of rows `(1024 (t / 4) + p, 2048 (t % 4) + q)`, one stretch adds the hinges of its 2048 columns to what
  the accumulator held, and over the four stretches of a row block, the first starting from the cleared column, the
  accumulator and then the output buffer come to hold the row's whole sum.
-/
import proofs.«180175_j71476845740753_2_alg».proof.Proof.KIPieces
import proofs.«180175_j71476845740753_2_alg».proof.Proof.KerPay
import proofs.«180175_j71476845740753_2_alg».proof.Proof.KerHost
import proofs.«180175_j71476845740753_2_alg».proof.Proof.KIBlocks
import proofs.«180175_j71476845740753_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Proof.PairLoss

variable (m : (ℓ : Loc nD τ sig) → Buf (Elt Ideal) ℓ)

/-- The two inputs as core `c` finds them. -/
abbrev inA (c : Dev nD) : Mat 8192 512 := m ((c : Thread nD τ).loc main_arg0)
abbrev inB (c : Dev nD) : Mat 1024 512 := m ((c : Thread nD τ).loc main_arg1)

/-- Row `p` of the row block of grid position `n`, as a row of the whole array. -/
abbrev rowIx (n : ℕ) (hn : n < cfg0.N) (p : Fin 1024) : Fin 8192 :=
  ⟨1024 * (n / 4) + p.val, by have : n < 32 := Nat.lt_of_lt_of_eq hn N_0; have := p.isLt; omega⟩

/-- Row `q` of the column stretch of grid position `n`, as a row of the whole array. -/
abbrev colIx (n : ℕ) (q : Fin 2048) : Fin 8192 :=
  ⟨2048 * (n % 4) + q.val, by have := q.isLt; omega⟩

/-! ## The arrays the region finds -/

theorem hostOps0_flat : List.flatten [hostOps0 (F := Ideal)] = hostOps0 := by
  simp only [List.flatten_cons, List.flatten_nil, List.append_nil]

/-- What the region finds in a buffer is what the host operations before it leave there. -/
theorem V_after (c : Dev nD) (b : Ref sig .tc) :
    V m c b = StableHlo.after (hostOps0 (F := Ideal)) (fun r => m (c, r)) (Proc.devRef .tc b) := by
  show StableHlo.after (List.flatten [hostOps0]) _ _ = _
  rw [hostOps0_flat]

/-! ## The five blocks in the shared vocabulary -/

theorem blk0_unit (c : Dev nD) (t : Fin cfg0.N) (p : Fin 1024) (k : Fin 512) (i : Fin 8192)
    (hi : i.val = 1024 * (t.val / 4) + p.val) :
    (iblk m c 0 t : S1024x512.Idx → EReal) (ix2 p k) = unit (inA m c) i k := by
  obtain rfl : i = rowIx t.val t.isLt p := Fin.ext hi
  refine (iblk0_at m c t p k).trans ?_
  rw [V_after]
  exact Cert.Proof.KerHost.v18_at (fun r => m (c, r)) _ k

theorem blk1_unit (c : Dev nD) (t : Fin cfg0.N) (q : Fin 2048) (k : Fin 512) (j : Fin 8192)
    (hj : j.val = 2048 * (t.val % 4) + q.val) :
    (iblk m c 1 t : S2048x512.Idx → EReal) (ix2 q k) = unit (inA m c) j k := by
  obtain rfl : j = colIx t.val q := Fin.ext hj
  refine (iblk1_at m c t q k).trans ?_
  rw [V_after]
  exact Cert.Proof.KerHost.v18_at (fun r => m (c, r)) _ k

theorem blk2_rowTerm (c : Dev nD) (t : Fin cfg0.N) (p : Fin 1024) (i : Fin 8192)
    (hi : i.val = 1024 * (t.val / 4) + p.val) :
    (iblk m c 2 t : S1024x1.Idx → EReal) (ix2 p 0) = (xx (inA m c) i + cTwoE * sx (inA m c) i) + cEsqD := by
  obtain rfl : i = rowIx t.val t.isLt p := Fin.ext hi
  refine (iblk2_at m c t p).trans ?_
  rw [V_after]
  exact Cert.Proof.KerHost.v29_at (fun r => m (c, r)) _

theorem blk3_colTerm (c : Dev nD) (t : Fin cfg0.N) (q : Fin 2048) (j : Fin 8192)
    (hj : j.val = 2048 * (t.val % 4) + q.val) :
    (iblk m c 3 t : S1x2048.Idx → EReal) (ix2 0 q) = xx (inA m c) j - cTwoE * sx (inA m c) j := by
  obtain rfl : j = colIx t.val q := Fin.ext hj
  refine (iblk3_at m c t q).trans ?_
  rw [V_after]
  exact Cert.Proof.KerHost.v33_at (fun r => m (c, r)) _

theorem blk4_margin (c : Dev nD) (t : Fin cfg0.N) (p : Fin 1024) (i : Fin 8192)
    (hi : i.val = 1024 * (t.val / 4) + p.val) :
    (iblk m c 4 t : S1024x1.Idx → EReal) (ix2 p 0) = cMargin - dNeg (inA m c) (inB m c) i := by
  obtain rfl : i = rowIx t.val t.isLt p := Fin.ext hi
  refine (iblk4_at m c t p).trans ?_
  rw [V_after]
  exact Cert.Proof.KerHost.v44_at (fun r => m (c, r)) _

/-! ## One stretch -/

/-- The body's summand at lane `q` of row `p`, for any blocks that hold the host's stages of rows `i` and `j`, is the
    hinge of the pair `(i, j)`: the row term and the column term are the two collected groups of the squared distance,
    the product is the inner product of the unit rows, the margin term is the margin less the second distance. -/
theorem hinge_of_blocks (a : Mat 8192 512) (b : Mat 1024 512) (x0 : Vec Ideal S1024x512 .bf16) (x1 : Vec Ideal S2048x512 .bf16)
    (x2 : Vec Ideal S1024x1 .f32) (x3 : Vec Ideal S1x2048 .f32) (x4 : Vec Ideal S1024x1 .f32)
    (p : Fin 1024) (q : Fin 2048) (i j : Fin 8192)
    (h0 : ∀ k : Fin 512, x0 (ix2 p k) = unit a i k) (h1 : ∀ k : Fin 512, x1 (ix2 q k) = unit a j k)
    (h2 : x2 (ix2 p 0) = (xx a i + cTwoE * sx a i) + cEsqD) (h3 : x3 (ix2 0 q) = xx a j - cTwoE * sx a j)
    (h4 : x4 (ix2 p 0) = cMargin - dNeg a b i) :
    max 0 (Ideal.sqrt (max ((x2 (ix2 p 0) + x3 (ix2 0 q)) - cTwo * ∑ k : Fin 512, x0 (ix2 p k) * x1 (ix2 q k)) cEps) + x4 (ix2 p 0))
      = hingeK a b i j := by
  have hg : (∑ k : Fin 512, x0 (ix2 p k) * x1 (ix2 q k)) = gram a i j :=
    Finset.sum_congr rfl fun k _ => by rw [h0 k, h1 k]
  rw [h2, h3, h4, hg]
  rfl

/-- At grid position `t` and row `p` the second stored value adds to what the accumulator held the hinges of row
    `i = 1024 (t / 4) + p` over stretch `s = t % 4` of the columns. -/
theorem pay2_stretch (c : Dev nD) (t : Fin cfg0.N) (p : Fin 1024) (xs : Vec Ideal S1024x1 .f32) (i : Fin 8192) (s : Fin 4)
    (hi : i.val = 1024 * (t.val / 4) + p.val) (hs : s.val = t.val % 4) :
    k0_pay2 (F := Ideal) (iblk m c 0 t) (iblk m c 1 t) (iblk m c 2 t) (iblk m c 3 t) (iblk m c 4 t) xs (ix2 p 0)
      = xs (ix2 p 0) + stretch (inA m c) (inB m c) i s := by
  refine (Cert.Proof.KerPay.pay2_apply (iblk m c 0 t) (iblk m c 1 t) (iblk m c 2 t) (iblk m c 3 t) (iblk m c 4 t) xs p).trans ?_
  refine congrArg (xs (ix2 p 0) + ·) (Finset.sum_congr rfl fun q _ => ?_)
  have hj : (col s q).val = 2048 * (t.val % 4) + q.val := by
    show 2048 * s.val + q.val = _
    rw [hs]
  exact hinge_of_blocks (inA m c) (inB m c) (iblk m c 0 t) (iblk m c 1 t) (iblk m c 2 t) (iblk m c 3 t) (iblk m c 4 t) p q i (col s q)
    (fun k => blk0_unit m c t p k i hi) (fun k => blk1_unit m c t q k (col s q) hj)
    (blk2_rowTerm m c t p i hi) (blk3_colTerm m c t q (col s q) hj) (blk4_margin m c t p i hi)
/-! ## The accumulator, stretch after stretch -/

/-- Row `i`'s hinges accumulated from zero over the stretches up to `r`. -/
def rowUpTo (a : Mat 8192 512) (b : Mat 1024 512) (i : Fin 8192) : ℕ → EReal
  | 0 => 0 + stretch a b i 0
  | r + 1 => rowUpTo a b i r + stretch a b i ⟨(r + 1) % 4, Nat.mod_lt _ (by decide)⟩

/-- Over all four stretches that is the row's sum. -/
theorem rowUpTo_three (a : Mat 8192 512) (b : Mat 1024 512) (i : Fin 8192) : rowUpTo a b i 3 = rowK a b i := rfl

/-- After the body at position `n` the accumulator holds, at row `p`, the hinges of row `1024 (n / 4) + p` accumulated
    over the stretches up to `n % 4`: a first stretch starts from the cleared column, a later one adds to what the
    stretch before left, which belongs to the same row block. -/
theorem accAt_eq (c : Dev nD) : ∀ (n : ℕ) (hn : n < cfg0.N) (p : Fin 1024),
    accAt m c n hn (ix2 p 0) = rowUpTo (inA m c) (inB m c) (rowIx n hn p) (n % 4) := by
  intro n
  induction n using Nat.strong_induction_on with
  | _ n ih =>
    intro hn p
    have h32 : n < 32 := Nat.lt_of_lt_of_eq hn N_0
    by_cases h0 : n % 4 = 0
    · refine (congrFun (accAt_first m c ⟨n, hn⟩ h0) (ix2 p 0)).trans ?_
      refine (congrFun (accFirst_eq m c ⟨n, hn⟩ _ _) (ix2 p 0)).trans ?_
      refine (pay2_stretch m c ⟨n, hn⟩ p _ (rowIx n hn p) 0 rfl (by rw [h0]; rfl)).trans ?_
      rw [Cert.Proof.KerPay.pay1_apply, h0]
      rfl
    · obtain ⟨r, hr⟩ : ∃ r, n % 4 = r + 1 := ⟨n % 4 - 1, by omega⟩
      have hn' : n - 1 < cfg0.N := by omega
      have ihp := ih (n - 1) (by omega) hn' p
      have hrow : rowIx (n - 1) hn' p = rowIx n hn p := Fin.ext (by
        show 1024 * ((n - 1) / 4) + p.val = 1024 * (n / 4) + p.val
        omega)
      have hmod : (n - 1) % 4 = r := by omega
      rw [hrow, hmod] at ihp
      have hs : ((⟨(r + 1) % 4, Nat.mod_lt _ (by decide)⟩ : Fin 4)).val = n % 4 := by
        show (r + 1) % 4 = n % 4
        omega
      rw [hr]
      show _ = rowUpTo (inA m c) (inB m c) (rowIx n hn p) r + stretch (inA m c) (inB m c) (rowIx n hn p) ⟨(r + 1) % 4, _⟩
      by_cases h3 : n % 4 = 3
      · refine (congrFun (accAt_last m c ⟨n, hn⟩ h0 h3) (ix2 p 0)).trans ?_
        refine (congrFun (accLast_eq m c ⟨n, hn⟩ _ _ _) (ix2 p 0)).trans ?_
        refine (pay2_stretch m c ⟨n, hn⟩ p _ (rowIx n hn p) _ rfl hs).trans ?_
        exact congrArg (· + stretch (inA m c) (inB m c) (rowIx n hn p) ⟨(r + 1) % 4, Nat.mod_lt _ (by decide)⟩) ihp
      · refine (congrFun (accAt_mid m c ⟨n, hn⟩ h0 h3) (ix2 p 0)).trans ?_
        refine (congrFun (accMid_eq m c ⟨n, hn⟩ _ _ _) (ix2 p 0)).trans ?_
        refine (pay2_stretch m c ⟨n, hn⟩ p _ (rowIx n hn p) _ rfl hs).trans ?_
        exact congrArg (· + stretch (inA m c) (inB m c) (rowIx n hn p) ⟨(r + 1) % 4, Nat.mod_lt _ (by decide)⟩) ihp

/-! ## The output buffer at a last stretch -/

/-- At a last stretch the output buffer receives, at row `p`, the whole sum of row `1024 (t / 4) + p`. -/
theorem outAt_eq (c : Dev nD) (t : Fin cfg0.N) (h3 : t.val % 4 = 3) (p : Fin 1024) :
    outAt m c t (ix2 p 0) = rowK (inA m c) (inB m c) (rowIx t.val t.isLt p) := by
  have h32 : t.val < 32 := point_lt t
  have hn' : t.val - 1 < cfg0.N := Nat.lt_of_le_of_lt (Nat.sub_le _ _) t.isLt
  unfold outAt
  rw [dif_pos h3]
  refine (congrFun (outLast_eq m c t _ _ _) (ix2 p 0)).trans ?_
  refine (pay2_stretch m c t p _ (rowIx t.val t.isLt p) 3 rfl (by rw [h3]; rfl)).trans ?_
  have ihp := accAt_eq m c (t.val - 1) hn' p
  have hrow : rowIx (t.val - 1) hn' p = rowIx t.val t.isLt p := Fin.ext (by
    show 1024 * ((t.val - 1) / 4) + p.val = 1024 * (t.val / 4) + p.val
    omega)
  have hmod : (t.val - 1) % 4 = 2 := by omega
  rw [hrow, hmod] at ihp
  rw [ihp]
  rfl

end Cert.KernelIdeal.Hand

end
-- ==== Proof.KIFinal.lean ====
/-
  The arrays after the run.  The five input windows' arrays are never written, so they end as the region found them.
  The output array is the column of row sums: every block written back is the restriction of that column (the value of
  the output buffer at a last stretch, row by row), and the written-back blocks tile the array.
-/
import proofs.«180175_j71476845740753_2_alg».proof.Proof.KICover
import proofs.«180175_j71476845740753_2_alg».proof.Proof.KIValue
import proofs.«180175_j71476845740753_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The input windows' arrays are never written -/

section inputs

variable {F : FTy → Type} [FloatOps F]
variable (m : (ℓ : Loc nD τ sig) → Buf (Elt F) ℓ)

/-- An input window's array ends as the region found it. -/
theorem arr_in (c : Dev nD) (w : Fin cfg0.W) (hin : (cfg0.win w).isOut = false) :
    (dats m 0 c).arrAt w cfg0.N = V m c (Pipeline.arrRef spec0 w) :=
  ((dats m 0 c).arrAt_in w hin cfg0.N).trans (A_eq m c w)

theorem arr_in0 (c : Dev nD) : (dats m 0 c).arrAt 0 cfg0.N = V m c (Pipeline.arrRef spec0 0) := arr_in m c 0 rfl
theorem arr_in1 (c : Dev nD) : (dats m 0 c).arrAt 1 cfg0.N = V m c (Pipeline.arrRef spec0 1) := arr_in m c 1 rfl
theorem arr_in2 (c : Dev nD) : (dats m 0 c).arrAt 2 cfg0.N = V m c (Pipeline.arrRef spec0 2) := arr_in m c 2 rfl
theorem arr_in3 (c : Dev nD) : (dats m 0 c).arrAt 3 cfg0.N = V m c (Pipeline.arrRef spec0 3) := arr_in m c 3 rfl
theorem arr_in4 (c : Dev nD) : (dats m 0 c).arrAt 4 cfg0.N = V m c (Pipeline.arrRef spec0 4) := arr_in m c 4 rfl

end inputs

/-! ## The output array is the column of row sums -/

section output

open Cert.Proof

variable (m : (ℓ : Loc nD τ sig) → Buf (Elt Ideal) ℓ)

/-- The column whose entry at row `i` is the sum of row `i`'s hinges. -/
def rowCol (c : Dev nD) : S8192x1.Idx → EReal := fun j => PairLoss.rowK (inA m c) (inB m c) (j 0)

/-- THE OUTPUT ARRAY after the run: at row `i` the sum of row `i`'s hinges. -/
theorem arr5_eq (c : Dev nD) :
    ((dats m 0 c).arrAt 5 cfg0.N : S8192x1.Idx → EReal) = fun j => PairLoss.rowK (inA m c) (inB m c) (j 0) := by
  refine final5 m c (rowCol m c : S8192x1.Idx → EReal) (fun t h3 => ?_)
  funext y
  obtain ⟨p, q, rfl⟩ : ∃ (p : Fin 1024) (q : Fin 1), y = ix2 p q := ⟨y 0, y 1, eq_ix2 y⟩
  obtain rfl : q = 0 := Subsingleton.elim _ _
  rw [read_outBlk c _ t p, outAt_eq m c t h3 p]
  rfl

/-- The output array after the run, as a column of extended reals. -/
abbrev outArr (c : Dev nD) : S8192x1.Idx → EReal := (dats m 0 c).arrAt 5 cfg0.N

/-- The sum of the output column is the sum of the row sums. -/
theorem rows_sum (c : Dev nD) :
    ∑ i : Fin 8192, outArr m c (ix2 i 0) = ∑ i : Fin 8192, PairLoss.rowK (inA m c) (inB m c) i :=
  Finset.sum_congr rfl fun i _ => congrFun (arr5_eq m c) (ix2 i 0)

end output

end Cert.KernelIdeal.Hand

end
-- ==== Proof.KIResult.lean ====
/-
  The kernel's result on the extended reals.  After the region the output array is the column of row sums; the host
  operations that follow sum the column, divide by the number of ordered pairs of distinct rows and clamp below by
  zero.  That is the loss with each row's hinges summed first.
-/
import proofs.«180175_j71476845740753_2_alg».proof.Proof.KIFinal
import proofs.«180175_j71476845740753_2_alg».proof.Proof.KerHost
import proofs.«180175_j71476845740753_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Proof

variable (m : (ℓ : Loc nD τ sig) → Buf (Elt Ideal) ℓ)

/-- The result, for any contents of the buffers in which the region's output array is what the region left: the host
    operations after the region sum that column, whose entries are the row sums, divide by the number of ordered pairs
    and clamp below by zero, which is the loss with the row sums taken first. -/
theorem result_of (c : Dev nD) (W' : Valuation τ sig (Elt Ideal))
    (h45 : W' (Proc.devRef .tc main_v45) = (dats m 0 c).arrAt 5 cfg0.N) :
    (StableHlo.after (hostOps1 (F := Ideal)) W' (Proc.devRef .tc main_v48) : S_.Idx → EReal)
      = fun _ => PairLoss.lossK (inA m c) (inB m c) := by
  funext j
  obtain rfl : j = ix0 := eq_ix0 j
  refine (Cert.Proof.KerHost.v48_at W').trans ?_
  rw [h45]
  exact congrArg (fun s => max (Ideal.div s PairLoss.cPairs) 0) (rows_sum m c)

end Cert.KernelIdeal.Hand

end
-- ==== Proof.RefRead.lean ====
/-
  The reference program's value is the pairwise margin loss in the grouping `lossR`.

  Each named quantity of the specification is read off the reference's operations in turn: the clamped
  row norms, the unit rows of both inputs, the squared norms, coordinate sums and inner products of
  unit rows, the squared distance of a pair, the distance to the first unit row of the second input,
  the hinge of a pair, and last the mean over all ordered pairs.  Every step is an unfolding of one
  operation at an explicit index together with an identification of composed index maps; the sums
  start from the zero word, which is the extended real zero.
-/
import proofs.«180175_j71476845740753_2_alg».proof.Proof.Gen.ReferenceIdeal.Read
import proofs.«180175_j71476845740753_2_alg».proof.Proof.Spec

noncomputable section

namespace Cert.Proof.RefRead

open Cert.ReferenceIdeal Cert.ReferenceIdeal.Read Idealize.ShloMosaic Idealize.ShloMosaic.ValueIdx
open Cert.Proof.PairLoss

/-- The first input's array type. -/
abbrev ArrA : Type := (⟨S8192x512, .f32⟩ : BufTy).Contents (Elt Ideal)
/-- The second input's array type. -/
abbrev ArrB : Type := (⟨S1024x512, .f32⟩ : BufTy).Contents (Elt Ideal)

/-! ## Index maps composed along the row-norm chain -/

theorem e_v6 (i : Fin 8192) (k : Fin 512) : idx_main_v6 (ix2 i k) = ix2 i (0 : Fin 1) :=
  funext fun a => Fin.ext (by match a with | ⟨0, _⟩ => rfl | ⟨1, _⟩ => rfl)
theorem e_v2 (i : Fin 8192) : idx_main_v2 (ix2 i (0 : Fin 1)) = ix1 i :=
  funext fun a => Fin.ext (by match a with | ⟨0, _⟩ => rfl)
theorem e_v1 (i : Fin 8192) (k : Fin 512) : idx_main_v1 (ix1 i) k = ix2 i k :=
  funext fun a => Fin.ext (by match a with | ⟨0, _⟩ => rfl | ⟨1, _⟩ => rfl)

/-- The clamped norm of row `i` of the first input. -/
theorem norm_a (x0 : ArrA) (i : Fin 8192) :
    val_main_v5 (F := Ideal) x0 (ix2 i (0 : Fin 1)) = rowNorm (n := 8192) x0 i := by
  rw [val_main_v5_apply, val_main_v3_apply, val_main_v2_apply, e_v2, val_main_v1_apply, val_main_v4_apply,
    val_main_cst_0_apply, val_main_cst_apply]
  simp only [e_v1, val_main_v0_apply, Ideal.mulf_def, Ideal.maximumf_def, Ideal.hostUnary_sqrt_def, Ideal.ofBits_def,
    Ideal.ofBits_zero_f32, zero_add]
  rfl

/-- Row `i` of the first input scaled to unit length. -/
theorem unit_a (x0 : ArrA) (i : Fin 8192) (k : Fin 512) :
    val_main_v7 (F := Ideal) x0 (ix2 i k) = unit (n := 8192) x0 i k := by
  rw [val_main_v7_apply, val_main_v6_apply, e_v6, norm_a, Ideal.hostDivf_def]
  rfl

/-! ## The same chain for the second input, and its first row -/

theorem e_v14 (i : Fin 1024) (k : Fin 512) : idx_main_v14 (ix2 i k) = ix2 i (0 : Fin 1) :=
  funext fun a => Fin.ext (by match a with | ⟨0, _⟩ => rfl | ⟨1, _⟩ => rfl)
theorem e_v10 (i : Fin 1024) : idx_main_v10 (ix2 i (0 : Fin 1)) = ix1 i :=
  funext fun a => Fin.ext (by match a with | ⟨0, _⟩ => rfl)
theorem e_v9 (i : Fin 1024) (k : Fin 512) : idx_main_v9 (ix1 i) k = ix2 i k :=
  funext fun a => Fin.ext (by match a with | ⟨0, _⟩ => rfl | ⟨1, _⟩ => rfl)

/-- The clamped norm of row `i` of the second input. -/
theorem norm_b (x1 : ArrB) (i : Fin 1024) :
    val_main_v13 (F := Ideal) x1 (ix2 i (0 : Fin 1)) = rowNorm (n := 1024) x1 i := by
  rw [val_main_v13_apply, val_main_v11_apply, val_main_v10_apply, e_v10, val_main_v9_apply, val_main_v12_apply,
    val_main_cst_2_apply, val_main_cst_1_apply]
  simp only [e_v9, val_main_v8_apply, Ideal.mulf_def, Ideal.maximumf_def, Ideal.hostUnary_sqrt_def, Ideal.ofBits_def,
    Ideal.ofBits_zero_f32, zero_add]
  rfl

/-- Row `i` of the second input scaled to unit length. -/
theorem unit_b (x1 : ArrB) (i : Fin 1024) (k : Fin 512) :
    val_main_v15 (F := Ideal) x1 (ix2 i k) = unit (n := 1024) x1 i k := by
  rw [val_main_v15_apply, val_main_v14_apply, e_v14, norm_b, Ideal.hostDivf_def]
  rfl

theorem e_v17 (k : Fin 512) : idx_main_v16 (idx_main_v17 (ix1 k)) = ix2 (0 : Fin 1024) k :=
  funext fun a => Fin.ext (by
    match a with
    | ⟨0, _⟩ => rfl
    | ⟨1, _⟩ => exact Nat.mod_eq_of_lt k.isLt)

/-- The first unit row of the second input, as a vector. -/
theorem row0_b (x1 : ArrB) (k : Fin 512) :
    val_main_v17 (F := Ideal) x1 (ix1 k) = unit (n := 1024) x1 0 k := by
  rw [val_main_v17_apply, val_main_v16_apply, e_v17, unit_b]

/-! ## Squared norms, coordinate sums and inner products of unit rows -/

theorem e_v19 (i : Fin 8192) (k : Fin 512) : idx_main_v19 (ix1 i) k = ix2 i k :=
  funext fun a => Fin.ext (by match a with | ⟨0, _⟩ => rfl | ⟨1, _⟩ => rfl)
theorem e_v20 (i : Fin 8192) (k : Fin 512) : idx_main_v20 (ix1 i) k = ix2 i k :=
  funext fun a => Fin.ext (by match a with | ⟨0, _⟩ => rfl | ⟨1, _⟩ => rfl)

/-- The squared norm of unit row `i`. -/
theorem xx_a (x0 : ArrA) (i : Fin 8192) : val_main_v19 (F := Ideal) x0 (ix1 i) = xx x0 i := by
  rw [val_main_v19_apply, val_main_cst_3_apply]
  simp only [e_v19, val_main_v18_apply, unit_a, Ideal.mulf_def, Ideal.ofBits_def, Ideal.ofBits_zero_f32, zero_add]
  rfl

/-- The coordinate sum of unit row `i`. -/
theorem sx_a (x0 : ArrA) (i : Fin 8192) : val_main_v20 (F := Ideal) x0 (ix1 i) = sx x0 i := by
  rw [val_main_v20_apply, val_main_cst_4_apply]
  simp only [e_v20, unit_a, Ideal.ofBits_def, Ideal.ofBits_zero_f32, zero_add]
  rfl

theorem e_l22 (i j : Fin 8192) (k : Fin 512) : lidx_main_v22 (ix2 i j) k = ix2 i k :=
  funext fun a => Fin.ext (by match a with | ⟨0, _⟩ => rfl | ⟨1, _⟩ => rfl)
theorem e_r22 (i j : Fin 8192) (k : Fin 512) : idx_main_v21 (ridx_main_v22 (ix2 i j) k) = ix2 j k :=
  funext fun a => Fin.ext (by match a with | ⟨0, _⟩ => rfl | ⟨1, _⟩ => rfl)

/-- The inner product of unit rows `i` and `j`. -/
theorem gram_a (x0 : ArrA) (i j : Fin 8192) : val_main_v22 (F := Ideal) x0 (ix2 i j) = gram x0 i j := by
  rw [val_main_v22_apply]
  simp only [val_main_v21_apply, e_l22, e_r22, unit_a]
  rfl

/-! ## The squared distance of a pair -/

theorem e_v25 (i j : Fin 8192) : idx_main_v23 (idx_main_v25 (ix2 i j)) = ix1 i :=
  funext fun a => Fin.ext (by match a with | ⟨0, _⟩ => rfl)
theorem e_v26 (i j : Fin 8192) : idx_main_v24 (idx_main_v26 (ix2 i j)) = ix1 j :=
  funext fun a => Fin.ext (by match a with | ⟨0, _⟩ => rfl)
theorem e_v33 (i j : Fin 8192) : idx_main_v31 (idx_main_v33 (ix2 i j)) = ix1 i :=
  funext fun a => Fin.ext (by match a with | ⟨0, _⟩ => rfl)
theorem e_v34 (i j : Fin 8192) : idx_main_v32 (idx_main_v34 (ix2 i j)) = ix1 j :=
  funext fun a => Fin.ext (by match a with | ⟨0, _⟩ => rfl)

/-- The sum of the two squared norms, spread over all pairs. -/
theorem xxsum_a (x0 : ArrA) (i j : Fin 8192) :
    val_main_v27 (F := Ideal) x0 (ix2 i j) = xx x0 i + xx x0 j := by
  rw [val_main_v27_apply, val_main_v25_apply, val_main_v23_apply, e_v25, val_main_v26_apply, val_main_v24_apply, e_v26,
    xx_a, xx_a, Ideal.addf_def]

/-- The difference of the two coordinate sums, spread over all pairs. -/
theorem sxdiff_a (x0 : ArrA) (i j : Fin 8192) :
    val_main_v35 (F := Ideal) x0 (ix2 i j) = sx x0 i - sx x0 j := by
  rw [val_main_v35_apply, val_main_v33_apply, val_main_v31_apply, e_v33, val_main_v34_apply, val_main_v32_apply, e_v34,
    sx_a, sx_a, Ideal.subf_def]

/-- The squared distance of unit rows `i`, `j`: the inner product is taken from the two norms first, then the
    multiple of the difference of the coordinate sums and the constant term are added. -/
theorem sq_a (x0 : ArrA) (i j : Fin 8192) : val_main_v40 (F := Ideal) x0 (ix2 i j) = sqR x0 i j := by
  rw [val_main_v40_apply, val_main_v38_apply, val_main_v30_apply, xxsum_a, val_main_v29_apply, val_main_v28_apply,
    val_main_cst_5_apply, gram_a, val_main_v37_apply, val_main_v36_apply, val_main_cst_6_apply, sxdiff_a,
    val_main_v39_apply, val_main_cst_7_apply]
  simp only [Ideal.addf_def, Ideal.subf_def, Ideal.mulf_def, Ideal.ofBits_def]
  rfl

/-! ## The distance to the first unit row of the second input -/

theorem e_v45 (i : Fin 8192) (k : Fin 512) : idx_main_v44 (idx_main_v45 (ix2 i k)) = ix1 k :=
  funext fun a => Fin.ext (by match a with | ⟨0, _⟩ => rfl)
theorem e_v50 (i : Fin 8192) (k : Fin 512) : idx_main_v50 (ix1 i) k = ix2 i k :=
  funext fun a => Fin.ext (by match a with | ⟨0, _⟩ => rfl | ⟨1, _⟩ => rfl)

/-- One coordinate of the shifted difference of unit row `i` and the first unit row of the second input. -/
theorem diff_ab (x0 : ArrA) (x1 : ArrB) (i : Fin 8192) (k : Fin 512) :
    val_main_v48 (F := Ideal) x0 x1 (ix2 i k) = (unit (n := 8192) x0 i k - unit (n := 1024) x1 0 k) + cE := by
  rw [val_main_v48_apply, val_main_v46_apply, unit_a, val_main_v45_apply, val_main_v44_apply, e_v45, row0_b,
    val_main_v47_apply, val_main_cst_9_apply, Ideal.addf_def, Ideal.subf_def, Ideal.ofBits_def]

/-- The distance of unit row `i` to the first unit row of the second input. -/
theorem dneg_ab (x0 : ArrA) (x1 : ArrB) (i : Fin 8192) :
    val_main_v51 (F := Ideal) x0 x1 (ix1 i) = dNeg x0 x1 i := by
  rw [val_main_v51_apply, val_main_v50_apply, val_main_cst_10_apply]
  simp only [e_v50, val_main_v49_apply, diff_ab, Ideal.mulf_def, Ideal.hostUnary_sqrt_def, Ideal.ofBits_def,
    Ideal.ofBits_zero_f32, zero_add]
  rfl

/-! ## The hinge of a pair and the loss -/

theorem e_v55 (i j : Fin 8192) : idx_main_v54 (idx_main_v55 (ix2 i j)) = ix1 i :=
  funext fun a => Fin.ext (by match a with | ⟨0, _⟩ => rfl)

/-- The hinge of the pair `i`, `j`: the margin is added to the root of the clamped squared distance, then the
    distance to the second input's first row is taken away. -/
theorem hinge_ab (x0 : ArrA) (x1 : ArrB) (i j : Fin 8192) :
    val_main_v58 (F := Ideal) x0 x1 (ix2 i j) = hingeR x0 x1 i j := by
  rw [val_main_v58_apply, val_main_v57_apply, val_main_cst_12_apply, val_main_v56_apply, val_main_v53_apply,
    val_main_v43_apply, val_main_v42_apply, sq_a, val_main_v41_apply, val_main_cst_8_apply, val_main_v52_apply,
    val_main_cst_11_apply, val_main_v55_apply, val_main_v54_apply, e_v55, dneg_ab]
  simp only [Ideal.addf_def, Ideal.subf_def, Ideal.maximumf_def, Ideal.hostUnary_sqrt_def, Ideal.ofBits_def,
    Ideal.ofBits_zero_f32]
  rfl

/-- The reference computes the mean hinge over all ordered pairs, clamped below by zero. -/
theorem ref_is_lossR (x0 : (⟨Cert.ReferenceIdeal.S8192x512, .f32⟩ : BufTy).Contents (Elt Ideal))
    (x1 : (⟨Cert.ReferenceIdeal.S1024x512, .f32⟩ : BufTy).Contents (Elt Ideal)) :
    Cert.ReferenceIdeal.Read.val_main_v61 (F := Ideal) x0 x1 = fun _ => Cert.Proof.PairLoss.lossR x0 x1 := by
  funext i
  rw [val_main_v61_apply, val_main_v60_apply, val_main_v59_apply, val_main_cst_13_apply, val_main_cst_14_apply,
    val_main_cst_15_apply]
  simp only [Ideal.maximumf_def, Ideal.hostDivf_def, Ideal.ofBits_def, Ideal.ofBits_zero_f32, zero_add]
  have hs : ∑ j : S8192x8192.Idx, val_main_v58 (F := Ideal) x0 x1 j
      = ∑ j : (⟨2, ![8192, 8192]⟩ : Shape).Idx, hingeR x0 x1 (j 0) (j 1) :=
    Finset.sum_congr rfl fun j _ =>
      (congrArg (val_main_v58 (F := Ideal) x0 x1) (eq_ix2 j)).trans (hinge_ab x0 x1 (j 0) (j 1))
  rw [hs]
  rfl

end Cert.Proof.RefRead

end
-- ==== Proof.LossLaw.lean ====
/-
  The two arrangements of the pairwise-distance margin loss agree when every input entry is a real number.

  With real inputs every clamped row norm is a positive real, so every entry of a unit row is a real, and so are the
  squared norms, coordinate sums, inner products and distances built from them.  On reals the two groupings of the
  expanded squared distance are equal by distributivity, and the two placements of the margin by associativity.
  The sums need no finiteness: the four stretches of 2048 columns partition the 8192 columns, and the sum over a
  rank-two index set is the double sum over its coordinates.
-/
import proofs.«180175_j71476845740753_2_alg».proof.Proof.Spec
import Mathlib

noncomputable section

namespace Cert.Proof.PairLoss

open Idealize.ShloMosaic Idealize.ShloMosaic.ValueIdx

/-! ### Reals, nonnegative reals and positive reals inside the extended reals -/

/-- An extended real that is a real number. -/
def IsReal (x : EReal) : Prop := ∃ r : ℝ, x = (r : EReal)
/-- An extended real that is a nonnegative real number. -/
def IsNN (x : EReal) : Prop := ∃ r : ℝ, 0 ≤ r ∧ x = (r : EReal)
/-- An extended real that is a positive real number. -/
def IsPos (x : EReal) : Prop := ∃ r : ℝ, 0 < r ∧ x = (r : EReal)

theorem isReal_of_ne {x : EReal} (h : x ≠ ⊤ ∧ x ≠ ⊥) : IsReal x := by
  lift x to ℝ using h
  exact ⟨x, rfl⟩

theorem IsNN.isReal {x : EReal} (h : IsNN x) : IsReal x := by
  obtain ⟨r, _, rfl⟩ := h; exact ⟨r, rfl⟩
theorem IsPos.isNN {x : EReal} (h : IsPos x) : IsNN x := by
  obtain ⟨r, hr, rfl⟩ := h; exact ⟨r, hr.le, rfl⟩

theorem isReal_coe (r : ℝ) : IsReal (r : EReal) := ⟨r, rfl⟩
theorem isReal_zero : IsReal 0 := ⟨0, EReal.coe_zero.symm⟩
theorem isNN_zero : IsNN 0 := ⟨0, le_rfl, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.sub {x y : EReal} (hx : IsReal x) (hy : IsReal y) : IsReal (x - y) := by
  obtain ⟨r, rfl⟩ := hx; obtain ⟨s, rfl⟩ := hy; exact ⟨r - s, (EReal.coe_sub r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
/-- The square of a real is a nonnegative real. -/
theorem IsReal.mul_self {x : EReal} (hx : IsReal x) : IsNN (x * x) := by
  obtain ⟨r, rfl⟩ := hx; exact ⟨r * r, mul_self_nonneg r, (EReal.coe_mul r r).symm⟩
theorem IsNN.add {x y : EReal} (hx : IsNN x) (hy : IsNN y) : IsNN (x + y) := by
  obtain ⟨r, hr, rfl⟩ := hx; obtain ⟨s, hs, rfl⟩ := hy
  exact ⟨r + s, add_nonneg hr hs, (EReal.coe_add r s).symm⟩

/-- A finite sum of reals is a real. -/
theorem isReal_sum {ι : Type*} (s : Finset ι) (f : ι → EReal) (h : ∀ i ∈ s, IsReal (f i)) :
    IsReal (∑ i ∈ s, f i) :=
  Finset.sum_induction f IsReal (fun _ _ => IsReal.add) isReal_zero h
/-- A finite sum of nonnegative reals is a nonnegative real. -/
theorem isNN_sum {ι : Type*} (s : Finset ι) (f : ι → EReal) (h : ∀ i ∈ s, IsNN (f i)) :
    IsNN (∑ i ∈ s, f i) :=
  Finset.sum_induction f IsNN (fun _ _ => IsNN.add) isNN_zero h

/-- The root of a nonnegative real is a nonnegative real. -/
theorem IsNN.sqrt {x : EReal} (hx : IsNN x) : IsNN (Ideal.sqrt x) := by
  obtain ⟨r, hr, rfl⟩ := hx
  refine ⟨Real.sqrt r, Real.sqrt_nonneg r, ?_⟩
  rw [Ideal.sqrt_coe, if_neg (not_lt.mpr hr)]

/-- Clamping a real below by a positive real gives a positive real. -/
theorem IsReal.max_pos {x y : EReal} (hx : IsReal x) (hy : IsPos y) : IsPos (max x y) := by
  obtain ⟨r, rfl⟩ := hx; obtain ⟨s, hs, rfl⟩ := hy
  exact ⟨max r s, lt_max_of_lt_right hs, (EReal.coe_strictMono.monotone.map_max).symm⟩

/-- A real divided by a positive real is a real. -/
theorem IsReal.div_pos {x y : EReal} (hx : IsReal x) (hy : IsPos y) : IsReal (Ideal.div x y) := by
  obtain ⟨r, rfl⟩ := hx; obtain ⟨s, hs, rfl⟩ := hy
  rw [Ideal.div_coe hs.ne']
  exact ⟨r * (1 / s), (EReal.coe_mul r (1 / s)).symm⟩

/-! ### The constants -/

/-- The lower clamp is a positive real. -/
theorem cEps_pos : IsPos cEps := by
  unfold IsPos
  simp [Ideal.ofBits, Ideal.ieee, -EReal.coe_mul]

theorem cTwoE_real : IsReal cTwoE := by
  unfold IsReal
  simp [Ideal.ofBits, Ideal.ieee, -EReal.coe_mul]

theorem cEsqD_real : IsReal cEsqD := by
  unfold IsReal
  simp [Ideal.ofBits, Ideal.ieee, -EReal.coe_mul]

theorem cE_real : IsReal cE := by
  unfold IsReal
  simp [Ideal.ofBits, Ideal.ieee, -EReal.coe_mul]

theorem cMargin_real : IsReal cMargin := by
  unfold IsReal
  simp [Ideal.ofBits, Ideal.ieee, -EReal.coe_mul]

theorem cTwo_real : IsReal cTwo := by
  unfold IsReal
  simp [Ideal.ofBits, Ideal.ieee, -EReal.coe_mul]

/-! ### Every intermediate quantity is a real -/

section finite

variable {n : Nat} (x : Mat n 512) (hx : ∀ j, x j ≠ ⊤ ∧ x j ≠ ⊥)
include hx

/-- The clamped norm of a row of reals is a positive real. -/
theorem rowNorm_pos (i : Fin n) : IsPos (rowNorm x i) :=
  IsReal.max_pos (IsNN.sqrt (isNN_sum _ _ fun _ _ => (isReal_of_ne (hx _)).mul_self)).isReal cEps_pos

/-- Every entry of a unit row is a real. -/
theorem unit_real (i : Fin n) (k : Fin 512) : IsReal (unit x i k) :=
  (isReal_of_ne (hx _)).div_pos (rowNorm_pos x hx i)

end finite

section laws

variable {a : Mat 8192 512} {b : Mat 1024 512}
  (ha : ∀ j, a j ≠ ⊤ ∧ a j ≠ ⊥) (hb : ∀ j, b j ≠ ⊤ ∧ b j ≠ ⊥)

include ha in
theorem xx_real (i : Fin 8192) : IsReal (xx a i) :=
  isReal_sum _ _ fun k _ => (unit_real a ha i k).mul (unit_real a ha i k)

include ha in
theorem sx_real (i : Fin 8192) : IsReal (sx a i) :=
  isReal_sum _ _ fun k _ => unit_real a ha i k

include ha in
theorem gram_real (i j : Fin 8192) : IsReal (gram a i j) :=
  isReal_sum _ _ fun k _ => (unit_real a ha i k).mul (unit_real a ha j k)

include ha hb in
theorem dNeg_real (i : Fin 8192) : IsReal (dNeg a b i) :=
  (IsNN.sqrt (isNN_sum _ _ fun k _ =>
    (((unit_real a ha i k).sub (unit_real b hb 0 k)).add cE_real).mul_self)).isReal

/-! ### The two groupings agree on reals -/

/-- Distributivity and regrouping, on reals. -/
theorem sq_law (x y s t g c d e : ℝ) :
    (((((x : EReal) + (c : EReal) * s) + d) + ((y : EReal) - (c : EReal) * t)) - (e : EReal) * g)
      = (((((x : EReal) + y) - (e : EReal) * g) + (c : EReal) * ((s : EReal) - t)) + d) := by
  norm_cast
  ring

/-- Associativity of the margin, on reals. -/
theorem hinge_law (s m d : ℝ) : (s : EReal) + ((m : EReal) - d) = ((s : EReal) + m) - d := by
  norm_cast
  ring

include ha in
/-- The two expansions of the squared distance are the same real. -/
theorem sqK_eq_sqR (i j : Fin 8192) : sqK a i j = sqR a i j ∧ IsReal (sqR a i j) := by
  obtain ⟨x, hx⟩ := xx_real ha i
  obtain ⟨y, hy⟩ := xx_real ha j
  obtain ⟨s, hs⟩ := sx_real ha i
  obtain ⟨t, ht⟩ := sx_real ha j
  obtain ⟨g, hg⟩ := gram_real ha i j
  obtain ⟨c, hc⟩ := cTwoE_real
  obtain ⟨d, hd⟩ := cEsqD_real
  obtain ⟨e, he⟩ := cTwo_real
  have hK : sqK a i j = ((((x : EReal) + (c : EReal) * s) + d) + ((y : EReal) - (c : EReal) * t)) - (e : EReal) * g := by
    unfold sqK; rw [hc, hd, he, hg, hs, ht, hx, hy]
  have hR : sqR a i j = ((((x : EReal) + y) - (e : EReal) * g) + (c : EReal) * ((s : EReal) - t)) + d := by
    unfold sqR; rw [hc, hd, he, hg, hs, ht, hx, hy]
  refine ⟨by rw [hK, hR, sq_law], ?_⟩
  rw [hR]
  exact (((((isReal_coe x).add (isReal_coe y)).sub ((isReal_coe e).mul (isReal_coe g))).add
    ((isReal_coe c).mul ((isReal_coe s).sub (isReal_coe t)))).add (isReal_coe d))

include ha hb in
/-- The two hinges of a pair are equal. -/
theorem hingeK_eq_hingeR (i j : Fin 8192) : hingeK a b i j = hingeR a b i j := by
  obtain ⟨h1, h2⟩ := sqK_eq_sqR ha i j
  obtain ⟨s, hs⟩ := (IsNN.sqrt (h2.max_pos cEps_pos).isNN).isReal
  obtain ⟨m, hm⟩ := cMargin_real
  obtain ⟨d, hd⟩ := dNeg_real ha hb i
  unfold hingeK hingeR
  rw [h1, hs, hm, hd, hinge_law]

end laws

/-! ### The sums -/

/-- The columns are the four stretches of 2048 columns, side by side. -/
def colEquiv : Fin 4 × Fin 2048 ≃ Fin 8192 where
  toFun p := col p.1 p.2
  invFun j := (⟨j.val / 2048, by have := j.isLt; omega⟩, ⟨j.val % 2048, by omega⟩)
  left_inv := by
    rintro ⟨t, q⟩
    have := t.isLt; have := q.isLt
    refine Prod.ext (Fin.ext ?_) (Fin.ext ?_)
    · show (2048 * t.val + q.val) / 2048 = t.val
      omega
    · show (2048 * t.val + q.val) % 2048 = q.val
      omega
  right_inv := by
    intro j
    refine Fin.ext ?_
    show 2048 * (j.val / 2048) + j.val % 2048 = j.val
    omega

/-- A sum over all columns, accumulated stretch after stretch from zero. -/
theorem sum_stretches {M : Type*} [AddCommMonoid M] (f : Fin 8192 → M) :
    (((0 + ∑ q : Fin 2048, f (col 0 q)) + ∑ q : Fin 2048, f (col 1 q)) + ∑ q : Fin 2048, f (col 2 q))
      + ∑ q : Fin 2048, f (col 3 q) = ∑ j, f j := by
  rw [← Equiv.sum_comp colEquiv f, Fintype.sum_prod_type, Fin.sum_univ_four, zero_add]
  rfl

/-- On real inputs the loss summed row by row, stretch by stretch, is the loss summed over all pairs at once. -/
theorem lossK_eq_lossR (a : Mat 8192 512) (b : Mat 1024 512) (ha : ∀ j, a j ≠ ⊤ ∧ a j ≠ ⊥)
    (hb : ∀ j, b j ≠ ⊤ ∧ b j ≠ ⊥) : lossK a b = lossR a b := by
  have hsum : (∑ i : Fin 8192, rowK a b i)
      = ∑ j : (⟨2, ![8192, 8192]⟩ : Shape).Idx, hingeR a b (j 0) (j 1) := by
    rw [sum_idx2]
    refine Finset.sum_congr rfl fun i _ => ?_
    unfold rowK stretch
    rw [sum_stretches (fun j => hingeK a b i j)]
    exact Finset.sum_congr rfl fun j _ => hingeK_eq_hingeR ha hb i j
  unfold lossK lossR
  rw [hsum]

end Cert.Proof.PairLoss

end
-- ==== Proof.FiniteIn.lean ====
/-
  From the stated precondition to finiteness of every input entry.

  The precondition is the conjunction, over both inputs, of "every entry's absolute value lies strictly below
  the positive infinity".  A conjunction of bits that is one has both bits one; a reduction by `and` over all axes that
  is one met a one at every index; and an extended real whose absolute value `max x (-x)` lies strictly below `⊤` is neither `⊤`
  (whose absolute value is `⊤`) nor `⊥` (whose negation is `⊤`), hence a real.
-/
import proofs.«180175_j71476845740753_2_alg».proof.Pre_finite_inputs
import Idealize.ShloMosaic.Lib.ReduceAll
import Idealize.ShloMosaic.Lib.ValueIdx
import Idealize.ShloMosaic.PureOps.Ideal

noncomputable section

namespace Cert.Proof.FiniteIn

open Idealize.ShloMosaic Idealize.ShloMosaic.ValueIdx

/-- The word with all exponent bits set and no fraction bit denotes the positive infinity. -/
theorem posInf_word : Ideal.ofBits .f32 0x7F800000#32 = ⊤ := by
  rfl

/-- The ordered "less than" on the extended reals is the bit of the strict order. -/
theorem cmp_olt (x y : EReal) : Ideal.cmp .olt x y = BitVec.ofBool (decide (x < y)) := rfl

/-- An extended real whose absolute value lies strictly below the positive infinity is neither infinity. -/
theorem finite_of_abs_lt (x : EReal) (h : Ideal.cmp .olt (max x (-x)) ⊤ = 1#1) : x ≠ ⊤ ∧ x ≠ ⊥ := by
  induction x using EReal.rec with
  | bot => revert h; simp [cmp_olt]
  | top => revert h; simp [cmp_olt]
  | coe r => exact ⟨EReal.coe_ne_top r, EReal.coe_ne_bot r⟩

/-- Under the stated precondition every entry of both inputs is a real number. -/
theorem finite_of_pre [Cert.Pre_finite_inputs.Facts]
    (x0 : (⟨2, ![8192, 512]⟩ : Shape).Idx → EReal) (x1 : (⟨2, ![1024, 512]⟩ : Shape).Idx → EReal)
    (h : Cert.Pre_finite_inputs.fn (F := Ideal) x0 x1 = fun _ => 1#1) :
    (∀ j, x0 j ≠ ⊤ ∧ x0 j ≠ ⊥) ∧ (∀ j, x1 j ≠ ⊤ ∧ x1 j ≠ ⊥) := by
  haveI : Subsingleton Cert.Pre_finite_inputs.S_.Idx := ⟨fun a b => funext fun d => d.elim0⟩
  have h0 := congrFun h ix0
  dsimp only [Cert.Pre_finite_inputs.fn] at h0
  obtain ⟨ha, hb⟩ := IntOp.andi_eq_one.1 h0
  refine ⟨fun j => ?_, fun j => ?_⟩
  · have e := Host.reduce_andi_all _ _ _ _ _ ha j
    have e' : Ideal.cmp .olt (max (x0 j) (-(x0 j))) (Ideal.ofBits .f32 0x7F800000#32) = 1#1 := e
    rw [posInf_word] at e'
    exact finite_of_abs_lt _ e'
  · have e := Host.reduce_andi_all _ _ _ _ _ hb j
    have e' : Ideal.cmp .olt (max (x1 j) (-(x1 j))) (Ideal.ofBits .f32 0x7F800000#32) = 1#1 := e
    rw [posInf_word] at e'
    exact finite_of_abs_lt _ e'

end Cert.Proof.FiniteIn

end
-- ==== Proof.lean ====
/-
  The nested pairwise-distance margin loss: a tiled kernel against its plain reference.

  Both programs scale the rows of their two inputs to unit length and compute, over all ordered pairs `(i, j)` of the
  8192 unit rows, the mean of `max 0 (d(i, j) + margin - d(i, n))` — `d(i, j)` the root of the clamped squared distance
  `‖P i - P j + e‖²` expanded through the Gram identity, `d(i, n)` the distance of row `i` to the first unit row of the
  second input — clamped below by zero. The kernel precomputes, per row, `‖x‖² + 2e·Σx + e²d` and `‖x‖² - 2e·Σx` and the
  margin less `d(i, n)` on the host, then walks an 8 × 4 grid of 1024-row blocks by 2048-column stretches: at each
  point it forms the block of inner products, the hinges, and their row sums, which it adds into an accumulator cleared
  at a row block's first stretch and copied out at its last; the host sums the 8192 row sums and divides. The reference
  forms the whole 8192 × 8192 matrix at once.

  On the extended reals the two agree once every input entry is finite: the unit rows are then real, the two groupings
  of the Gram identity differ by distributivity and regrouping of real sums (`lossK_eq_lossR`), and sums of extended reals
  may be taken in any order and grouping.

  The frames: the reference is straight-line host code (its generated run). The kernel's region has two windows on
  ONE array (the unit rows by row block and by column stretch), so its launch deals that array's full share to the two
  windows in halves at entry and joins them at exit (`KILaunch`); the body obligation is proved point by point from the
  body's three control cases (first, middle, last stretch of a row block), the accumulator's contents carried in the
  invariant. The same development, read at the word level, is the word-level program's frame.
-/
import proofs.«180175_j71476845740753_2_alg».proof.Defs
import proofs.«180175_j71476845740753_2_alg».proof.Proof.Gen.Kernel
import proofs.«180175_j71476845740753_2_alg».proof.Proof.Gen.KernelIdeal
import proofs.«180175_j71476845740753_2_alg».proof.Proof.Gen.ReferenceIdeal
import proofs.«180175_j71476845740753_2_alg».proof.Proof.Gen.ReferenceIdeal.Run
import proofs.«180175_j71476845740753_2_alg».proof.Proof.Gen.ReferenceIdeal.Read
import proofs.«180175_j71476845740753_2_alg».proof.Proof.Gen.Pre_finite_inputs
import proofs.«180175_j71476845740753_2_alg».proof.Proof.KILaunch
import proofs.«180175_j71476845740753_2_alg».proof.Proof.KBLaunch
import proofs.«180175_j71476845740753_2_alg».proof.Proof.KIResult
import proofs.«180175_j71476845740753_2_alg».proof.Proof.RefRead
import proofs.«180175_j71476845740753_2_alg».proof.Proof.LossLaw
import proofs.«180175_j71476845740753_2_alg».proof.Proof.FiniteIn
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- The reference is host code: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal.Hand in
/-- Both programs end at the loss of the (finite) arguments: the kernel at the row-sums-first form, the reference at the
    all-pairs form, equal by `lossK_eq_lossR`. -/
theorem algebraic : Cert.algebraic_KernelIdeal_ReferenceIdeal := by
  intro m ρ m' ρ' hpre hagree
  refine ⟨fun c => (fun _ => Cert.Proof.PairLoss.lossR (inA m c) (inB m c)), ?_, ?_⟩
  · refine (θ_run Cert.KernelIdeal.defs _ _).mono (fun r h c => ⟨(h c).1.trans ?_, (h c).2⟩)
      (Cert.KernelIdeal.Hand.run_result (F := Ideal) m ρ)
    obtain ⟨ha, hb⟩ := Cert.Proof.FiniteIn.finite_of_pre (inA m c) (inB m c) (hpre c)
    beta_reduce
    rw [← Cert.Proof.PairLoss.lossK_eq_lossR _ _ ha hb]
    show StableHlo.after (List.flatten [Cert.KernelIdeal.Gen.hostOps1]) _ _ = _
    rw [flatten1]
    exact result_of m c (Wx m c) (Wx_out m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v61_eq, Cert.Proof.RefRead.ref_is_lossR, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
